-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S16x128x128 : Shape := ⟨3, ![16, 128, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S16x128x128 : S_.BroadcastsInDim S16x128x128 (![] : Fin 0 → Fin S16x128x128.rank)
  reducesTo_S16x128x128_S_d0_1_2 : S16x128x128.ReducesTo [0, 1, 2] S_

variable [Facts]

def fn {F : FTy → Type} [FloatOps F] (main_arg0 : FVec F S50000x64 .f32) (main_arg1 : IVec S2x800000 32) (main_arg2 : FVec F S16x128x128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S16x128x128 .f32 := Host.absf main_arg2
  let main_cst_0 : FVec F S_ .f32 := constant S_ .f32 0x7F800000#32
  let main_v5 : FVec F S16x128x128 .f32 := broadcastInDim S16x128x128 ![] bcast_S_S16x128x128 main_cst_0
  let main_v6 : IVec S16x128x128 1 := cmpf .olt main_v4 main_v5
  let main_c_1 : IVec S_ 1 := constantI S_ 1 1#1
  let main_v7 : IVec S_ 1 := (fun x v => Host.reduce IntOp.andi x v reducesTo_S16x128x128_S_d0_1_2 h_S_) main_v6 main_c_1
  let main_v8 : IVec S_ 1 := andi main_v3 main_v7
  main_v8
-- ==== Kernel.lean ====
abbrev S50000x64 : Shape := ⟨2, ![50000, 64]⟩
abbrev S2x800000 : Shape := ⟨2, ![2, 800000]⟩
abbrev S16x128x128 : Shape := ⟨3, ![16, 128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S128x16x128 : Shape := ⟨3, ![128, 16, 128]⟩
abbrev S128x2048 : Shape := ⟨2, ![128, 2048]⟩
abbrev S800000x16 : Shape := ⟨2, ![800000, 16]⟩
abbrev S3200x128 : Shape := ⟨2, ![3200, 128]⟩
abbrev S3200x16 : Shape := ⟨2, ![3200, 16]⟩
abbrev S128x512 : Shape := ⟨2, ![128, 512]⟩
abbrev S3200x512 : Shape := ⟨2, ![3200, 512]⟩
abbrev S3200 : Shape := ⟨1, ![3200]⟩
abbrev S3200x1 : Shape := ⟨2, ![3200, 1]⟩
abbrev S800000x4x4 : Shape := ⟨3, ![800000, 4, 4]⟩

abbrev nBuf : Space → Nat
  | .hbm => 30
  | .vmem => 5
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S16x128x128, .f32⟩
  | .hbm, ⟨3, _⟩ => ⟨S1x800000, .i32⟩
  | .hbm, ⟨4, _⟩ => ⟨S800000, .i32⟩
  | .hbm, ⟨5, _⟩ => ⟨S1x800000, .i32⟩
  | .hbm, ⟨6, _⟩ => ⟨S800000, .i32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x64, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x64, .f32⟩
  | .hbm, ⟨25, _⟩ => ⟨S800000x128, .f32⟩
  | .hbm, ⟨26, _⟩ => ⟨S128x16x128, .f32⟩
  | .hbm, ⟨27, _⟩ => ⟨S128x2048, .f32⟩
  | .hbm, ⟨28, _⟩ => ⟨S800000x16, .f32⟩
  | .hbm, ⟨29, _⟩ => ⟨S800000x4x4, .f32⟩
  | .local _ .vmem, ⟨0, _⟩ => ⟨S3200x128, .f32⟩
  | .local _ .vmem, ⟨1, _⟩ => ⟨S3200x128, .f32⟩
  | .local _ .vmem, ⟨2, _⟩ => ⟨S128x2048, .f32⟩
  | .local _ .vmem, ⟨3, _⟩ => ⟨S3200x16, .f32⟩
  | .local _ .vmem, ⟨4, _⟩ => ⟨S3200x16, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3200x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  transposes_S16x128x128_S128x16x128_1_0_2 : S16x128x128.Transposes [1, 0, 2] S128x16x128
  shapeCasts_S128x16x128_S128x2048 : S128x16x128.ShapeCasts S128x2048
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  bitsLt_bf16_f32 : FTy.bits .bf16 < FTy.bits .f32
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  slices_S128x2048_o0_0_S128x512 : S128x2048.Slices ![0, 0] S128x512
  slices_S3200x512_o0_0_S3200x128 : S3200x512.Slices ![0, 0] S3200x128
  reduces_S3200x128_S3200 : S3200x128.Reduces [1] S3200
  shapeCasts_S3200_S3200x1 : S3200.ShapeCasts S3200x1
  slices_S3200x512_o0_128_S3200x128 : S3200x512.Slices ![0, 128] S3200x128
  slices_S3200x512_o0_256_S3200x128 : S3200x512.Slices ![0, 256] S3200x128
  slices_S3200x512_o0_384_S3200x128 : S3200x512.Slices ![0, 384] S3200x128
  slices_S128x2048_o0_512_S128x512 : S128x2048.Slices ![0, 512] S128x512
  slices_S128x2048_o0_1024_S128x512 : S128x2048.Slices ![0, 1024] S128x512
  slices_S128x2048_o0_1536_S128x512 : S128x2048.Slices ![0, 1536] S128x512
  concatenates_S3200x1_S3200x1_S3200x1_S3200x1_S3200x1_S3200x1_S3200x1_S3200x1_S3200x1_S3200x1_S3200x1_S3200x1_S3200x1_S3200x1_S3200x1_S3200x1_S3200x16_d1 : Shape.Concatenates [S3200x1, S3200x1, S3200x1, S3200x1, S3200x1, S3200x1, S3200x1, S3200x1, S3200x1, S3200x1, S3200x1, S3200x1, S3200x1, S3200x1, S3200x1, S3200x1] S3200x16 1
  inb_S3200x16_S3200x16_0_0 : ∀ a, (![0, 0] : Fin 2 → Nat) a + S3200x16.size a ≤ S3200x16.size a
  h_S3200x16 : 0 < S3200x16.numel
  shapeCasts_S800000x16_S800000x4x4 : S800000x16.ShapeCasts S800000x4x4
  gather_S50000x64_S800000x1_S800000x64_1_0_n_n_0_1_164_wf : GatherDims.WF S50000x64 S800000x1 S800000x64 [1] [0] [] [0] [] 1 ![1, 64]
  dot_S3200x128_S128x512_S3200x512_1_0_0_1_n_n_wf : DotDims.WF S3200x128 S128x512 S3200x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S800000x128.size a
  hwx0_0 : ∀ i : grid0.Coords, EltTy.bits .f32 = 32 ∨ (Rect.block (s := S800000x128) S3200x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S128x2048.size a
  hwx0_1 : ∀ i : grid0.Coords, EltTy.bits .f32 = 32 ∨ (Rect.block (s := S128x2048) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x16.size a ≤ S800000x16.size a
  hwx0_2 : ∀ i : grid0.Coords, EltTy.bits .f32 = 32 ∨ (Rect.block (s := S800000x16) S3200x16.size (cc0_transform_2 i) (hinb0_2 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S3200x128_S128x512_S3200x512_1_0_0_1_n_n : DotDims S3200x128 S128x512 S3200x512 where
  lhsContracting := [1]
  rhsContracting := [0]
  lhsNonContracting := [0]
  rhsNonContracting := [1]
  lhsBatch := []
  rhsBatch := []
  wf := dot_S3200x128_S128x512_S3200x512_1_0_0_1_n_n_wf

abbrev win0_0 : Pipeline.Window sig grid0 :=
  Pipeline.Window.ofSpec (Memref.whole main_v18) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S128x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S3200x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S16x128x128 : Shape := ⟨3, ![16, 128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S1x128x128 : Shape := ⟨3, ![1, 128, 128]⟩
abbrev S128x128 : Shape := ⟨2, ![128, 128]⟩
abbrev S800000x16 : Shape := ⟨2, ![800000, 16]⟩
abbrev S800000x4x4 : Shape := ⟨3, ![800000, 4, 4]⟩

abbrev nBuf : Space → Nat
  | .hbm => 141
  | .vmem => 0
  | .smem => 0
  | _ => 0

abbrev hbmTy0_0 (i : Nat) : BufTy := match i % 128 with
  | 0 => ⟨S50000x64, .f32⟩
  | 1 => ⟨S2x800000, .i32⟩
  | 2 => ⟨S16x128x128, .f32⟩
  | 3 => ⟨S1x800000, .i32⟩
  | 4 => ⟨S800000, .i32⟩
  | 5 => ⟨S1x800000, .i32⟩
  | 6 => ⟨S800000, .i32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000x64, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x64, .f32⟩
  | 25 => ⟨S800000x128, .f32⟩
  | 26 => ⟨S1x128x128, .f32⟩
  | 27 => ⟨S128x128, .f32⟩
  | 28 => ⟨S800000x128, .f32⟩
  | 29 => ⟨S800000x128, .f32⟩
  | 30 => ⟨S_, .f32⟩
  | 31 => ⟨S800000, .f32⟩
  | 32 => ⟨S1x128x128, .f32⟩
  | 33 => ⟨S128x128, .f32⟩
  | 34 => ⟨S800000x128, .f32⟩
  | 35 => ⟨S800000x128, .f32⟩
  | 36 => ⟨S_, .f32⟩
  | 37 => ⟨S800000, .f32⟩
  | 38 => ⟨S1x128x128, .f32⟩
  | 39 => ⟨S128x128, .f32⟩
  | 40 => ⟨S800000x128, .f32⟩
  | 41 => ⟨S800000x128, .f32⟩
  | 42 => ⟨S_, .f32⟩
  | 43 => ⟨S800000, .f32⟩
  | 44 => ⟨S1x128x128, .f32⟩
  | 45 => ⟨S128x128, .f32⟩
  | 46 => ⟨S800000x128, .f32⟩
  | 47 => ⟨S800000x128, .f32⟩
  | 48 => ⟨S_, .f32⟩
  | 49 => ⟨S800000, .f32⟩
  | 50 => ⟨S1x128x128, .f32⟩
  | 51 => ⟨S128x128, .f32⟩
  | 52 => ⟨S800000x128, .f32⟩
  | 53 => ⟨S800000x128, .f32⟩
  | 54 => ⟨S_, .f32⟩
  | 55 => ⟨S800000, .f32⟩
  | 56 => ⟨S1x128x128, .f32⟩
  | 57 => ⟨S128x128, .f32⟩
  | 58 => ⟨S800000x128, .f32⟩
  | 59 => ⟨S800000x128, .f32⟩
  | 60 => ⟨S_, .f32⟩
  | 61 => ⟨S800000, .f32⟩
  | 62 => ⟨S1x128x128, .f32⟩
  | 63 => ⟨S128x128, .f32⟩
  | 64 => ⟨S800000x128, .f32⟩
  | 65 => ⟨S800000x128, .f32⟩
  | 66 => ⟨S_, .f32⟩
  | 67 => ⟨S800000, .f32⟩
  | 68 => ⟨S1x128x128, .f32⟩
  | 69 => ⟨S128x128, .f32⟩
  | 70 => ⟨S800000x128, .f32⟩
  | 71 => ⟨S800000x128, .f32⟩
  | 72 => ⟨S_, .f32⟩
  | 73 => ⟨S800000, .f32⟩
  | 74 => ⟨S1x128x128, .f32⟩
  | 75 => ⟨S128x128, .f32⟩
  | 76 => ⟨S800000x128, .f32⟩
  | 77 => ⟨S800000x128, .f32⟩
  | 78 => ⟨S_, .f32⟩
  | 79 => ⟨S800000, .f32⟩
  | 80 => ⟨S1x128x128, .f32⟩
  | 81 => ⟨S128x128, .f32⟩
  | 82 => ⟨S800000x128, .f32⟩
  | 83 => ⟨S800000x128, .f32⟩
  | 84 => ⟨S_, .f32⟩
  | 85 => ⟨S800000, .f32⟩
  | 86 => ⟨S1x128x128, .f32⟩
  | 87 => ⟨S128x128, .f32⟩
  | 88 => ⟨S800000x128, .f32⟩
  | 89 => ⟨S800000x128, .f32⟩
  | 90 => ⟨S_, .f32⟩
  | 91 => ⟨S800000, .f32⟩
  | 92 => ⟨S1x128x128, .f32⟩
  | 93 => ⟨S128x128, .f32⟩
  | 94 => ⟨S800000x128, .f32⟩
  | 95 => ⟨S800000x128, .f32⟩
  | 96 => ⟨S_, .f32⟩
  | 97 => ⟨S800000, .f32⟩
  | 98 => ⟨S1x128x128, .f32⟩
  | 99 => ⟨S128x128, .f32⟩
  | 100 => ⟨S800000x128, .f32⟩
  | 101 => ⟨S800000x128, .f32⟩
  | 102 => ⟨S_, .f32⟩
  | 103 => ⟨S800000, .f32⟩
  | 104 => ⟨S1x128x128, .f32⟩
  | 105 => ⟨S128x128, .f32⟩
  | 106 => ⟨S800000x128, .f32⟩
  | 107 => ⟨S800000x128, .f32⟩
  | 108 => ⟨S_, .f32⟩
  | 109 => ⟨S800000, .f32⟩
  | 110 => ⟨S1x128x128, .f32⟩
  | 111 => ⟨S128x128, .f32⟩
  | 112 => ⟨S800000x128, .f32⟩
  | 113 => ⟨S800000x128, .f32⟩
  | 114 => ⟨S_, .f32⟩
  | 115 => ⟨S800000, .f32⟩
  | 116 => ⟨S1x128x128, .f32⟩
  | 117 => ⟨S128x128, .f32⟩
  | 118 => ⟨S800000x128, .f32⟩
  | 119 => ⟨S800000x128, .f32⟩
  | 120 => ⟨S_, .f32⟩
  | 121 => ⟨S800000, .f32⟩
  | 122 => ⟨S800000x1, .f32⟩
  | 123 => ⟨S800000x1, .f32⟩
  | 124 => ⟨S800000x1, .f32⟩
  | 125 => ⟨S800000x1, .f32⟩
  | 126 => ⟨S800000x1, .f32⟩
  | 127 => ⟨S800000x1, .f32⟩
  | _ => ⟨S50000x64, .f32⟩

abbrev hbmTy0_1 (i : Nat) : BufTy := match i % 128 with
  | 0 => ⟨S800000x1, .f32⟩
  | 1 => ⟨S800000x1, .f32⟩
  | 2 => ⟨S800000x1, .f32⟩
  | 3 => ⟨S800000x1, .f32⟩
  | 4 => ⟨S800000x1, .f32⟩
  | 5 => ⟨S800000x1, .f32⟩
  | 6 => ⟨S800000x1, .f32⟩
  | 7 => ⟨S800000x1, .f32⟩
  | 8 => ⟨S800000x1, .f32⟩
  | 9 => ⟨S800000x1, .f32⟩
  | 10 => ⟨S800000x16, .f32⟩
  | 11 => ⟨S800000x16, .f32⟩
  | 12 => ⟨S800000x4x4, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_7 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_8 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_9 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_10 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_11 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_12 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_13 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_14 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_cst_15 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_cst_16 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_cst_17 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  slices_S16x128x128_S1x128x128_0_0_0 : S16x128x128.Slices ![0, 0, 0] S1x128x128
  shapeCasts_S1x128x128_S128x128 : S1x128x128.ShapeCasts S128x128
  reducesTo_S800000x128_S800000_d1 : S800000x128.ReducesTo [1] S800000
  h_S_ : 0 < S_.numel
  slices_S16x128x128_S1x128x128_1_0_0 : S16x128x128.Slices ![1, 0, 0] S1x128x128
  slices_S16x128x128_S1x128x128_2_0_0 : S16x128x128.Slices ![2, 0, 0] S1x128x128
  slices_S16x128x128_S1x128x128_3_0_0 : S16x128x128.Slices ![3, 0, 0] S1x128x128
  slices_S16x128x128_S1x128x128_4_0_0 : S16x128x128.Slices ![4, 0, 0] S1x128x128
  slices_S16x128x128_S1x128x128_5_0_0 : S16x128x128.Slices ![5, 0, 0] S1x128x128
  slices_S16x128x128_S1x128x128_6_0_0 : S16x128x128.Slices ![6, 0, 0] S1x128x128
  slices_S16x128x128_S1x128x128_7_0_0 : S16x128x128.Slices ![7, 0, 0] S1x128x128
  slices_S16x128x128_S1x128x128_8_0_0 : S16x128x128.Slices ![8, 0, 0] S1x128x128
  slices_S16x128x128_S1x128x128_9_0_0 : S16x128x128.Slices ![9, 0, 0] S1x128x128
  slices_S16x128x128_S1x128x128_10_0_0 : S16x128x128.Slices ![10, 0, 0] S1x128x128
  slices_S16x128x128_S1x128x128_11_0_0 : S16x128x128.Slices ![11, 0, 0] S1x128x128
  slices_S16x128x128_S1x128x128_12_0_0 : S16x128x128.Slices ![12, 0, 0] S1x128x128
  slices_S16x128x128_S1x128x128_13_0_0 : S16x128x128.Slices ![13, 0, 0] S1x128x128
  slices_S16x128x128_S1x128x128_14_0_0 : S16x128x128.Slices ![14, 0, 0] S1x128x128
  slices_S16x128x128_S1x128x128_15_0_0 : S16x128x128.Slices ![15, 0, 0] S1x128x128
  concatenates_S800000x1_S800000x1_S800000x1_S800000x1_S800000x1_S800000x1_S800000x1_S800000x1_S800000x1_S800000x1_S800000x1_S800000x1_S800000x1_S800000x1_S800000x1_S800000x1_S800000x16_d1 : Shape.Concatenates [S800000x1, S800000x1, S800000x1, S800000x1, S800000x1, S800000x1, S800000x1, S800000x1, S800000x1, S800000x1, S800000x1, S800000x1, S800000x1, S800000x1, S800000x1, S800000x1] S800000x16 1
  shapeCasts_S800000x16_S800000x4x4 : S800000x16.ShapeCasts S800000x4x4
  gather_S50000x64_S800000x1_S800000x64_1_0_n_n_0_1_164_wf : GatherDims.WF S50000x64 S800000x1 S800000x64 [1] [0] [] [0] [] 1 ![1, 64]
  dot_S800000x128_S128x128_S800000x128_1_0_0_1_n_n_wf : DotDims.WF S800000x128 S128x128 S800000x128 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf

class Facts : Prop extends Facts₀ where

variable [Facts]
-- ==== Proof.LibColumn.lean ====
/-
  Column vectors and sums along one axis of a matrix, read at an index (general: any extents, no program).

  A sum that keeps its axis (a row sum stored as a column, a column sum stored as one cell) passes through a few
  re-arrangements: a length-a vector viewed as an a × 1 column, a column repeated along every row of an a × b matrix,
  a single cell repeated over a whole matrix, a length-1 vector viewed as a 1 × 1 matrix. Each reads its operand at
  the evident index. At the exact values, summing a matrix along its columns gives each row's sum, and summing a
  column gives the sum of its entries; both as plain finite sums.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Column

open Idealize.ShloMosaic Idealize.ShloMosaic.ValueIdx

variable {α : Type}

/-- A length-a vector viewed as an a × 1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A length-1 vector viewed as a 1 × 1 matrix reads its one entry. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) :=
  (shapeCast_a_1a_apply x h u v).trans (congrArg x (congrArg ix1 (Subsingleton.elim v 0)))

/-- An a × 1 column repeated along the rows of an a × b matrix reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single cell repeated over an a × b matrix reads that cell everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- At the exact values, summing an a × b matrix along its columns gives, at row r, the sum of that row. -/
theorem laneSum_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ v acc h hφ hacc (ix1 r) = ∑ j : Fin b, v (ix2 r j) := by
  refine (Ideal.multiReduction_add_single v acc h hφ hacc (ix1 r)).trans ?_
  refine Finset.sum_congr rfl fun j _ => congrArg v ?_
  funext ax
  match ax with
  | ⟨0, _⟩ => exact Fin.ext rfl
  | ⟨1, _⟩ => exact Fin.ext rfl

/-- At the exact values, summing an a × 1 column along its rows gives the sum of its entries. -/
theorem colSum_apply {a : ℕ} (v : FVec Ideal ⟨2, ![a, 1]⟩ .f32) (acc : BitVec 32)
    (h : (⟨2, ![a, 1]⟩ : Shape).Reduces [0] ⟨1, ![1]⟩) (hφ : FKind.Formats .f32)
    (hacc : acc = FKind.add.neutral .f32 hφ) (u : Fin 1) :
    multiReduction .add [0] ⟨1, ![1]⟩ v acc h hφ hacc (ix1 u) = ∑ r : Fin a, v (ix2 r (0 : Fin 1)) := by
  refine (Ideal.multiReduction_add_single v acc h hφ hacc (ix1 u)).trans ?_
  refine Finset.sum_congr rfl fun r _ => congrArg v ?_
  funext ax
  match ax with
  | ⟨0, _⟩ => exact Fin.ext rfl
  | ⟨1, _⟩ => exact Fin.ext (by show u.val = 0; omega)

end Cert.Column

end
-- ==== Proof.LibColumnJoin.lean ====
/-
  Sixteen one-wide columns set side by side, read at an index (general: any number of rows, no program).

  Joining sixteen a × 1 columns along the second axis gives an a × 16 matrix whose entry (p, q) is the q-th column's
  entry in row p: the position along the joined axis names the column, the row is kept.
-/
import Idealize.ShloMosaic.Lib.ValueIdx
import Idealize.ShloMosaic.Lib.Pipeline.Value

noncomputable section

namespace Cert.ColumnJoin

open Idealize.ShloMosaic Idealize.ShloMosaic.ValueIdx

variable {α : Type}

/-- The a × 16 matrix joined from the sixteen a × 1 columns f 0, …, f 15 reads, at (p, q), column q at row p. -/
theorem join16_apply {a : ℕ} (f : Fin 16 → ((⟨2, ![a, 1]⟩ : Shape).Idx → α))
    (h : Shape.Concatenates ((List.ofFn fun n : Fin 16 => (⟨⟨2, ![a, 1]⟩, f n⟩ : (s : Shape) × (s.Idx → α))).map (·.1))
      ⟨2, ![a, 16]⟩ 1) (p : Fin a) (q : Fin 16) :
    concatenate ⟨2, ![a, 16]⟩ 1 (List.ofFn fun n : Fin 16 => (⟨⟨2, ![a, 1]⟩, f n⟩ : (s : Shape) × (s.Idx → α))) h (ix2 p q)
      = f q (ix2 p (0 : Fin 1)) := by
  refine concatenate_ofFn_unit_apply (t := ⟨2, ![a, 16]⟩) (s₁ := ⟨2, ![a, 1]⟩) 1 f h rfl rfl (ix2 p q) q rfl
    (ix2 p (0 : Fin 1)) fun b hb => ?_
  match b with
  | ⟨0, _⟩ => rfl
  | ⟨1, _⟩ => exact absurd rfl hb

/-- The same with the sixteen columns named one by one: to read the joined matrix at (p, q) it is enough to read
    each column c_n at row p, as a value r n depending on the column's number. -/
theorem join16_cols {a : ℕ} (c0 c1 c2 c3 c4 c5 c6 c7 c8 c9 c10 c11 c12 c13 c14 c15 : (⟨2, ![a, 1]⟩ : Shape).Idx → α)
    (h : Shape.Concatenates ((List.ofFn fun n : Fin 16 => (⟨⟨2, ![a, 1]⟩, (![c0, c1, c2, c3, c4, c5, c6, c7, c8, c9, c10, c11, c12, c13, c14, c15] : Fin 16 → _) n⟩ : (s : Shape) × (s.Idx → α))).map (·.1))
      ⟨2, ![a, 16]⟩ 1) (p : Fin a) (q : Fin 16) (r : Fin 16 → α)
    (h0 : c0 (ix2 p (0 : Fin 1)) = r 0) (h1 : c1 (ix2 p (0 : Fin 1)) = r 1) (h2 : c2 (ix2 p (0 : Fin 1)) = r 2) (h3 : c3 (ix2 p (0 : Fin 1)) = r 3) (h4 : c4 (ix2 p (0 : Fin 1)) = r 4) (h5 : c5 (ix2 p (0 : Fin 1)) = r 5) (h6 : c6 (ix2 p (0 : Fin 1)) = r 6) (h7 : c7 (ix2 p (0 : Fin 1)) = r 7) (h8 : c8 (ix2 p (0 : Fin 1)) = r 8) (h9 : c9 (ix2 p (0 : Fin 1)) = r 9) (h10 : c10 (ix2 p (0 : Fin 1)) = r 10) (h11 : c11 (ix2 p (0 : Fin 1)) = r 11) (h12 : c12 (ix2 p (0 : Fin 1)) = r 12) (h13 : c13 (ix2 p (0 : Fin 1)) = r 13) (h14 : c14 (ix2 p (0 : Fin 1)) = r 14) (h15 : c15 (ix2 p (0 : Fin 1)) = r 15) :
    concatenate ⟨2, ![a, 16]⟩ 1 [⟨⟨2, ![a, 1]⟩, c0⟩, ⟨⟨2, ![a, 1]⟩, c1⟩, ⟨⟨2, ![a, 1]⟩, c2⟩, ⟨⟨2, ![a, 1]⟩, c3⟩, ⟨⟨2, ![a, 1]⟩, c4⟩, ⟨⟨2, ![a, 1]⟩, c5⟩, ⟨⟨2, ![a, 1]⟩, c6⟩, ⟨⟨2, ![a, 1]⟩, c7⟩, ⟨⟨2, ![a, 1]⟩, c8⟩, ⟨⟨2, ![a, 1]⟩, c9⟩, ⟨⟨2, ![a, 1]⟩, c10⟩, ⟨⟨2, ![a, 1]⟩, c11⟩, ⟨⟨2, ![a, 1]⟩, c12⟩, ⟨⟨2, ![a, 1]⟩, c13⟩, ⟨⟨2, ![a, 1]⟩, c14⟩, ⟨⟨2, ![a, 1]⟩, c15⟩] h (ix2 p q) = r q := by
  refine (join16_apply ![c0, c1, c2, c3, c4, c5, c6, c7, c8, c9, c10, c11, c12, c13, c14, c15] h p q).trans ?_
  match q with
  | ⟨0, _⟩ => exact h0
  | ⟨1, _⟩ => exact h1
  | ⟨2, _⟩ => exact h2
  | ⟨3, _⟩ => exact h3
  | ⟨4, _⟩ => exact h4
  | ⟨5, _⟩ => exact h5
  | ⟨6, _⟩ => exact h6
  | ⟨7, _⟩ => exact h7
  | ⟨8, _⟩ => exact h8
  | ⟨9, _⟩ => exact h9
  | ⟨10, _⟩ => exact h10
  | ⟨11, _⟩ => exact h11
  | ⟨12, _⟩ => exact h12
  | ⟨13, _⟩ => exact h13
  | ⟨14, _⟩ => exact h14
  | ⟨15, _⟩ => exact h15
  | ⟨n + 16, hn⟩ => exact absurd hn (by omega)

end Cert.ColumnJoin

end
-- ==== Proof.QForm.lean ====
/-
  The quadratic forms of the edge features (general: any number of edges, no program).

  For an array Z of n feature vectors of length 128 and sixteen 128 × 128 matrices M₀ … M₁₅, the result has one row
  per vector and one entry per matrix: entry (e, q) is tanh (z_eᵀ M_q z_e), written as the double sum
      tanh (∑ d, (∑ k, Z(e,k) · M(q,k,d)) · Z(e,d)).
  Both programs are shown to compute exactly this double sum, in this order of multiplication and summation, so no
  law of the extended reals beyond the reading of each operation is used.
-/
import Idealize.ShloMosaic.Lib.ValueIdx
import Idealize.ShloMosaic.PureOps.Ideal

noncomputable section

open scoped BigOperators

namespace Cert.QForm

open Idealize.ShloMosaic Idealize.ShloMosaic.ValueIdx

/-- Entry (e, q) is tanh of the quadratic form of feature vector e in matrix q. -/
def qform {n : ℕ} (Z : (⟨2, ![n, 128]⟩ : Shape).Idx → EReal) (M : (⟨3, ![16, 128, 128]⟩ : Shape).Idx → EReal) :
    (⟨2, ![n, 16]⟩ : Shape).Idx → EReal :=
  fun i => Ideal.tanh (∑ d : Fin 128, (∑ k : Fin 128, Z (ix2 (i 0) k) * M (ix3 (i 1) k d)) * Z (ix2 (i 0) d))

theorem qform_apply {n : ℕ} (Z : (⟨2, ![n, 128]⟩ : Shape).Idx → EReal) (M : (⟨3, ![16, 128, 128]⟩ : Shape).Idx → EReal)
    (e : Fin n) (q : Fin 16) :
    qform Z M (ix2 e q)
      = Ideal.tanh (∑ d : Fin 128, (∑ k : Fin 128, Z (ix2 e k) * M (ix3 q k d)) * Z (ix2 e d)) := rfl

end Cert.QForm

end
-- ==== Proof.KernelColumn.lean ====
/-
  One block of the quadratic forms, entry by entry.

  The body works on a block z of 3200 rows of the edge features (each a vector of 128 numbers) and on the packed
  matrix w, 128 × 2048, whose columns 128·q … 128·q + 127 are the q-th of the sixteen matrices. It multiplies z by four
  512-column slabs of w, cuts each product into four 128-column pieces, multiplies each piece entry by entry with z,
  sums every row, sets the sixteen row sums side by side and applies tanh. At the exact values a change of number
  format does nothing, a matrix product into a zero accumulator is the plain sum of products, and a row sum is a
  plain finite sum; so entry (p, q) of the block is
      tanh (∑ d, (∑ k, z(p,k) · w(k, 128·q + d)) · z(p,d)),
  the quadratic form of row p in the q-th matrix, under tanh.
-/
import proofs.«116615_j9174050144889_2_alg».proof.Proof.Gen.KernelIdeal.Skeleton
import proofs.«116615_j9174050144889_2_alg».proof.Proof.LibColumn
import proofs.«116615_j9174050144889_2_alg».proof.Proof.LibColumnJoin
import proofs.«116615_j9174050144889_2_alg».proof.Proof.QForm
import Idealize.ShloMosaic.Lib.ValueIdx
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-! ## The block product's operand indices -/

theorem lhs0 (i : S3200x512.Idx) (q : dot_S3200x128_S128x512_S3200x512_1_0_0_1_n_n.contr.Idx) :
    (dot_S3200x128_S128x512_S3200x512_1_0_0_1_n_n.lhsIdx i q 0).val = (i 0).val := by
  unfold DotDims.lhsIdx
  rw [dif_neg (show ¬(0 : Fin S3200x128.rank) ∈ dot_S3200x128_S128x512_S3200x512_1_0_0_1_n_n.lhsBatch by decide), dif_pos (show (0 : Fin S3200x128.rank) ∈ dot_S3200x128_S128x512_S3200x512_1_0_0_1_n_n.lhsNonContracting by decide)]
  rfl
theorem lhs1 (i : S3200x512.Idx) (q : dot_S3200x128_S128x512_S3200x512_1_0_0_1_n_n.contr.Idx) :
    (dot_S3200x128_S128x512_S3200x512_1_0_0_1_n_n.lhsIdx i q 1).val = (q ⟨0, by decide⟩).val :=
  dot_S3200x128_S128x512_S3200x512_1_0_0_1_n_n.lhsIdx_val_of_single rfl i q
theorem rhs0 (i : S3200x512.Idx) (q : dot_S3200x128_S128x512_S3200x512_1_0_0_1_n_n.contr.Idx) :
    (dot_S3200x128_S128x512_S3200x512_1_0_0_1_n_n.rhsIdx i q 0).val = (q ⟨0, by decide⟩).val :=
  dot_S3200x128_S128x512_S3200x512_1_0_0_1_n_n.rhsIdx_val_of_single rfl i q
theorem rhs1 (i : S3200x512.Idx) (q : dot_S3200x128_S128x512_S3200x512_1_0_0_1_n_n.contr.Idx) :
    (dot_S3200x128_S128x512_S3200x512_1_0_0_1_n_n.rhsIdx i q 1).val = (i 1).val := by
  unfold DotDims.rhsIdx
  rw [dif_neg (show ¬(1 : Fin S128x512.rank) ∈ dot_S3200x128_S128x512_S3200x512_1_0_0_1_n_n.rhsBatch by decide), dif_pos (show (1 : Fin S128x512.rank) ∈ dot_S3200x128_S128x512_S3200x512_1_0_0_1_n_n.rhsNonContracting by decide)]
  rfl

/-- The product of a 3200 × 128 block with a 128 × 512 slab, into zero, at (p, n): the sum over k of l(p,k) · r(k,n). -/
theorem slab_apply (l : FVec Ideal S3200x128 .bf16) (r : FVec Ideal S128x512 .bf16) (p : Fin 3200) (n : Fin 512) :
    matmul dot_S3200x128_S128x512_S3200x512_1_0_0_1_n_n none l r (constant S3200x512 .f32 0x00000000#32) (ix2 p n)
      = ∑ k : Fin 128, l (ix2 p k) * r (ix2 k n) := by
  simp only [matmul]
  rw [Ideal.matmul_constant_zero_apply, ← Equiv.sum_comp (ValueIdx.contrEquiv1 dot_S3200x128_S128x512_S3200x512_1_0_0_1_n_n 128 rfl rfl).symm]
  refine Finset.sum_congr rfl fun k _ => ?_
  have hk := ValueIdx.contrEquiv1_symm_val dot_S3200x128_S128x512_S3200x512_1_0_0_1_n_n 128 rfl rfl k
  have el : dot_S3200x128_S128x512_S3200x512_1_0_0_1_n_n.lhsIdx (ix2 p n) ((ValueIdx.contrEquiv1 dot_S3200x128_S128x512_S3200x512_1_0_0_1_n_n 128 rfl rfl).symm k) = ix2 p k := funext fun a => Fin.ext (by
    match a with
    | ⟨0, _⟩ => exact lhs0 _ _
    | ⟨1, _⟩ => exact (lhs1 _ _).trans hk)
  have er : dot_S3200x128_S128x512_S3200x512_1_0_0_1_n_n.rhsIdx (ix2 p n) ((ValueIdx.contrEquiv1 dot_S3200x128_S128x512_S3200x512_1_0_0_1_n_n 128 rfl rfl).symm k) = ix2 k n := funext fun a => Fin.ext (by
    match a with
    | ⟨0, _⟩ => exact (rhs0 _ _).trans hk
    | ⟨1, _⟩ => exact rhs1 _ _)
  rw [el, er]

/-! ## One column -/

/-- The column the body forms from slab `oc` of w and piece `oj` of the product: the row sums of
    (z · slab)[:, oj … oj+127] ∘ z, kept as a 3200 × 1 column. -/
def col (z : Vec Ideal S3200x128 .f32) (w : Vec Ideal S128x2048 .f32) (oc oj : ℕ)
    (hc : S128x2048.Slices ![0, oc] S128x512) (hj : S3200x512.Slices ![0, oj] S3200x128) : FVec Ideal S3200x1 .f32 :=
  shapeCast S3200x1 (multiReduction .add [1] S3200
      (mulf (extractStridedSlice S3200x128 ![0, oj]
          (matmul dot_S3200x128_S128x512_S3200x512_1_0_0_1_n_n none
            (truncf .bf16 (shapeCast S3200x128 z Facts₀.shapeCasts_S3200x128_S3200x128) Facts₀.bitsLt_bf16_f32)
            (extractStridedSlice S128x512 ![0, oc] (truncf .bf16 (shapeCast S128x2048 w Facts₀.shapeCasts_S128x2048_S128x2048) Facts₀.bitsLt_bf16_f32) hc)
            (constant S3200x512 .f32 0x00000000#32)) hj)
        (shapeCast S3200x128 z Facts₀.shapeCasts_S3200x128_S3200x128))
      0x00000000#32 Facts₀.reduces_S3200x128_S3200 (.inl rfl) rfl) Facts₀.shapeCasts_S3200_S3200x1

/-- Row p of that column is ∑ d, (∑ k, z(p,k) · w(k, oc+oj+d)) · z(p,d); `e d` names column oj+d of the product and
    `g d` column oc+oj+d of w. -/
theorem col_apply (z : Vec Ideal S3200x128 .f32) (w : Vec Ideal S128x2048 .f32) (oc oj : ℕ)
    (hc : S128x2048.Slices ![0, oc] S128x512) (hj : S3200x512.Slices ![0, oj] S3200x128) (p : Fin 3200)
    (e : Fin 128 → Fin 512) (he : ∀ d, (e d).val = oj + d.val)
    (g : Fin 128 → Fin 2048) (hg : ∀ d, (g d).val = oc + (e d).val) :
    col z w oc oj hc hj (ix2 p (0 : Fin 1))
      = ∑ d : Fin 128, (∑ k : Fin 128, z (ix2 p k) * w (ix2 k (g d))) * z (ix2 p d) := by
  unfold col
  refine (Cert.Column.shapeCast_a_a1_apply _ _ p (0 : Fin 1)).trans ?_
  refine (Cert.Column.laneSum_apply _ _ _ _ _ p).trans ?_
  refine Finset.sum_congr rfl fun d _ => ?_
  rw [mulf_apply, shapeCast_self]
  refine congrArg (· * z (ix2 p d)) ?_
  refine (extractStridedSlice_apply ![0, oj] _ hj (ix2 p d) (ix2 p (e d)) (fun a => by
    match a with
    | ⟨0, _⟩ => show p.val = 0 + p.val; omega
    | ⟨1, _⟩ => show (e d).val = oj + d.val; exact he d)).trans ?_
  rw [slab_apply]
  refine Finset.sum_congr rfl fun k _ => ?_
  rw [truncf_apply]
  refine congrArg (z (ix2 p k) * ·) ?_
  refine (extractStridedSlice_apply ![0, oc] _ hc (ix2 k (e d)) (ix2 k (g d)) (fun a => by
    match a with
    | ⟨0, _⟩ => show k.val = 0 + k.val; omega
    | ⟨1, _⟩ => show (g d).val = oc + (e d).val; exact hg d)).trans ?_
  rw [truncf_apply, shapeCast_self]

/-! ## The whole block -/

/-- The sixteen columns, in the order the body joins them: slab c, piece j is column 4c + j. -/
def cols (x0 : Vec Ideal S3200x128 .f32) (x1 : Vec Ideal S128x2048 .f32) : Fin 16 → FVec Ideal S3200x1 .f32 :=
  ![col x0 x1 0 0 Facts₀.slices_S128x2048_o0_0_S128x512 Facts₀.slices_S3200x512_o0_0_S3200x128,
    col x0 x1 0 128 Facts₀.slices_S128x2048_o0_0_S128x512 Facts₀.slices_S3200x512_o0_128_S3200x128,
    col x0 x1 0 256 Facts₀.slices_S128x2048_o0_0_S128x512 Facts₀.slices_S3200x512_o0_256_S3200x128,
    col x0 x1 0 384 Facts₀.slices_S128x2048_o0_0_S128x512 Facts₀.slices_S3200x512_o0_384_S3200x128,
    col x0 x1 512 0 Facts₀.slices_S128x2048_o0_512_S128x512 Facts₀.slices_S3200x512_o0_0_S3200x128,
    col x0 x1 512 128 Facts₀.slices_S128x2048_o0_512_S128x512 Facts₀.slices_S3200x512_o0_128_S3200x128,
    col x0 x1 512 256 Facts₀.slices_S128x2048_o0_512_S128x512 Facts₀.slices_S3200x512_o0_256_S3200x128,
    col x0 x1 512 384 Facts₀.slices_S128x2048_o0_512_S128x512 Facts₀.slices_S3200x512_o0_384_S3200x128,
    col x0 x1 1024 0 Facts₀.slices_S128x2048_o0_1024_S128x512 Facts₀.slices_S3200x512_o0_0_S3200x128,
    col x0 x1 1024 128 Facts₀.slices_S128x2048_o0_1024_S128x512 Facts₀.slices_S3200x512_o0_128_S3200x128,
    col x0 x1 1024 256 Facts₀.slices_S128x2048_o0_1024_S128x512 Facts₀.slices_S3200x512_o0_256_S3200x128,
    col x0 x1 1024 384 Facts₀.slices_S128x2048_o0_1024_S128x512 Facts₀.slices_S3200x512_o0_384_S3200x128,
    col x0 x1 1536 0 Facts₀.slices_S128x2048_o0_1536_S128x512 Facts₀.slices_S3200x512_o0_0_S3200x128,
    col x0 x1 1536 128 Facts₀.slices_S128x2048_o0_1536_S128x512 Facts₀.slices_S3200x512_o0_128_S3200x128,
    col x0 x1 1536 256 Facts₀.slices_S128x2048_o0_1536_S128x512 Facts₀.slices_S3200x512_o0_256_S3200x128,
    col x0 x1 1536 384 Facts₀.slices_S128x2048_o0_1536_S128x512 Facts₀.slices_S3200x512_o0_384_S3200x128]

/-- What the body stores, as tanh of the sixteen columns joined. -/
theorem stored_eq (x0 : Vec Ideal S3200x128 .f32) (x1 : Vec Ideal S128x2048 .f32) :
    k0_pay1 (k0_pay2 x0) (k0_pay3 x0) (k0_pay4 x1) (k0_pay6 x0 x1) (k0_pay7 x0 x1) (k0_pay8 x0 x1) (k0_pay9 x0 x1)
        (k0_pay11 x0 x1) (k0_pay12 x0 x1) (k0_pay13 x0 x1) (k0_pay14 x0 x1) (k0_pay15 x0 x1)
      = tanh (concatenate S3200x16 1 (List.ofFn fun n : Fin 16 => (⟨S3200x1, cols x0 x1 n⟩ : (s : Shape) × (s.Idx → Ideal .f32)))
          Facts₀.concatenates_S3200x1_S3200x1_S3200x1_S3200x1_S3200x1_S3200x1_S3200x1_S3200x1_S3200x1_S3200x1_S3200x1_S3200x1_S3200x1_S3200x1_S3200x1_S3200x1_S3200x16_d1) := rfl

/-- Column 128·q + d of w, as an index. -/
abbrev wcol (q : Fin 16) (d : Fin 128) : Fin 2048 := ⟨128 * q.val + d.val, by have := q.isLt; have := d.isLt; omega⟩

/-- Entry (p, q) of the stored block: tanh of row p's quadratic form in the q-th matrix. -/
theorem stored_apply (x0 : Vec Ideal S3200x128 .f32) (x1 : Vec Ideal S128x2048 .f32) (p : Fin 3200) (q : Fin 16) :
    k0_pay1 (k0_pay2 x0) (k0_pay3 x0) (k0_pay4 x1) (k0_pay6 x0 x1) (k0_pay7 x0 x1) (k0_pay8 x0 x1) (k0_pay9 x0 x1)
        (k0_pay11 x0 x1) (k0_pay12 x0 x1) (k0_pay13 x0 x1) (k0_pay14 x0 x1) (k0_pay15 x0 x1) (ix2 p q)
      = Ideal.tanh (∑ d : Fin 128, (∑ k : Fin 128, x0 (ix2 p k) * x1 (ix2 k (wcol q d))) * x0 (ix2 p d)) := by
  rw [stored_eq]
  show Ideal.tanh (concatenate S3200x16 1 _ _ (ix2 p q)) = _
  refine congrArg Ideal.tanh ?_
  refine (Cert.ColumnJoin.join16_apply (a := 3200) (cols x0 x1) _ p q).trans ?_
  match q with
  | ⟨0, _⟩ => exact col_apply x0 x1 0 0 _ _ p (fun d => ⟨0 + d.val, by have := d.isLt; omega⟩) (fun _ => rfl) (wcol ⟨0, by decide⟩) (fun d => by show 128 * 0 + d.val = 0 + (0 + d.val); omega)
  | ⟨1, _⟩ => exact col_apply x0 x1 0 128 _ _ p (fun d => ⟨128 + d.val, by have := d.isLt; omega⟩) (fun _ => rfl) (wcol ⟨1, by decide⟩) (fun d => by show 128 * 1 + d.val = 0 + (128 + d.val); omega)
  | ⟨2, _⟩ => exact col_apply x0 x1 0 256 _ _ p (fun d => ⟨256 + d.val, by have := d.isLt; omega⟩) (fun _ => rfl) (wcol ⟨2, by decide⟩) (fun d => by show 128 * 2 + d.val = 0 + (256 + d.val); omega)
  | ⟨3, _⟩ => exact col_apply x0 x1 0 384 _ _ p (fun d => ⟨384 + d.val, by have := d.isLt; omega⟩) (fun _ => rfl) (wcol ⟨3, by decide⟩) (fun d => by show 128 * 3 + d.val = 0 + (384 + d.val); omega)
  | ⟨4, _⟩ => exact col_apply x0 x1 512 0 _ _ p (fun d => ⟨0 + d.val, by have := d.isLt; omega⟩) (fun _ => rfl) (wcol ⟨4, by decide⟩) (fun d => by show 128 * 4 + d.val = 512 + (0 + d.val); omega)
  | ⟨5, _⟩ => exact col_apply x0 x1 512 128 _ _ p (fun d => ⟨128 + d.val, by have := d.isLt; omega⟩) (fun _ => rfl) (wcol ⟨5, by decide⟩) (fun d => by show 128 * 5 + d.val = 512 + (128 + d.val); omega)
  | ⟨6, _⟩ => exact col_apply x0 x1 512 256 _ _ p (fun d => ⟨256 + d.val, by have := d.isLt; omega⟩) (fun _ => rfl) (wcol ⟨6, by decide⟩) (fun d => by show 128 * 6 + d.val = 512 + (256 + d.val); omega)
  | ⟨7, _⟩ => exact col_apply x0 x1 512 384 _ _ p (fun d => ⟨384 + d.val, by have := d.isLt; omega⟩) (fun _ => rfl) (wcol ⟨7, by decide⟩) (fun d => by show 128 * 7 + d.val = 512 + (384 + d.val); omega)
  | ⟨8, _⟩ => exact col_apply x0 x1 1024 0 _ _ p (fun d => ⟨0 + d.val, by have := d.isLt; omega⟩) (fun _ => rfl) (wcol ⟨8, by decide⟩) (fun d => by show 128 * 8 + d.val = 1024 + (0 + d.val); omega)
  | ⟨9, _⟩ => exact col_apply x0 x1 1024 128 _ _ p (fun d => ⟨128 + d.val, by have := d.isLt; omega⟩) (fun _ => rfl) (wcol ⟨9, by decide⟩) (fun d => by show 128 * 9 + d.val = 1024 + (128 + d.val); omega)
  | ⟨10, _⟩ => exact col_apply x0 x1 1024 256 _ _ p (fun d => ⟨256 + d.val, by have := d.isLt; omega⟩) (fun _ => rfl) (wcol ⟨10, by decide⟩) (fun d => by show 128 * 10 + d.val = 1024 + (256 + d.val); omega)
  | ⟨11, _⟩ => exact col_apply x0 x1 1024 384 _ _ p (fun d => ⟨384 + d.val, by have := d.isLt; omega⟩) (fun _ => rfl) (wcol ⟨11, by decide⟩) (fun d => by show 128 * 11 + d.val = 1024 + (384 + d.val); omega)
  | ⟨12, _⟩ => exact col_apply x0 x1 1536 0 _ _ p (fun d => ⟨0 + d.val, by have := d.isLt; omega⟩) (fun _ => rfl) (wcol ⟨12, by decide⟩) (fun d => by show 128 * 12 + d.val = 1536 + (0 + d.val); omega)
  | ⟨13, _⟩ => exact col_apply x0 x1 1536 128 _ _ p (fun d => ⟨128 + d.val, by have := d.isLt; omega⟩) (fun _ => rfl) (wcol ⟨13, by decide⟩) (fun d => by show 128 * 13 + d.val = 1536 + (128 + d.val); omega)
  | ⟨14, _⟩ => exact col_apply x0 x1 1536 256 _ _ p (fun d => ⟨256 + d.val, by have := d.isLt; omega⟩) (fun _ => rfl) (wcol ⟨14, by decide⟩) (fun d => by show 128 * 14 + d.val = 1536 + (256 + d.val); omega)
  | ⟨15, _⟩ => exact col_apply x0 x1 1536 384 _ _ p (fun d => ⟨384 + d.val, by have := d.isLt; omega⟩) (fun _ => rfl) (wcol ⟨15, by decide⟩) (fun d => by show 128 * 15 + d.val = 1536 + (384 + d.val); omega)
  | ⟨n + 16, h⟩ => exact absurd h (by omega)

/-- So, when the block z holds rows of an array Z (row p of z is row e of Z) and w packs the sixteen matrices M
    (column 128·q + d of w is column d of M_q), entry (p, q) of the stored block is entry (e, q) of the quadratic forms. -/
theorem stored_eq_qform (x0 : Vec Ideal S3200x128 .f32) (x1 : Vec Ideal S128x2048 .f32)
    (Z : (⟨2, ![800000, 128]⟩ : Shape).Idx → EReal) (M : (⟨3, ![16, 128, 128]⟩ : Shape).Idx → EReal)
    (p : Fin 3200) (q : Fin 16) (e : Fin 800000)
    (hz : ∀ k : Fin 128, x0 (ix2 p k) = Z (ix2 e k)) (hw : ∀ k d : Fin 128, x1 (ix2 k (wcol q d)) = M (ix3 q k d)) :
    k0_pay1 (k0_pay2 x0) (k0_pay3 x0) (k0_pay4 x1) (k0_pay6 x0 x1) (k0_pay7 x0 x1) (k0_pay8 x0 x1) (k0_pay9 x0 x1)
        (k0_pay11 x0 x1) (k0_pay12 x0 x1) (k0_pay13 x0 x1) (k0_pay14 x0 x1) (k0_pay15 x0 x1) (ix2 p q)
      = Cert.QForm.qform Z M (ix2 e q) := by
  rw [stored_apply, Cert.QForm.qform_apply]
  refine congrArg Ideal.tanh (Finset.sum_congr rfl fun d _ => ?_)
  rw [hz d]
  refine congrArg (· * Z (ix2 e d)) (Finset.sum_congr rfl fun k _ => ?_)
  rw [hz k, hw k d]

end Cert.KernelIdeal.Block

end
-- ==== Proof.KernelArray.lean ====
/-
  From blocks to the whole array, and the program's result.

  The grid has 250 points; point t works on rows 3200·t … 3200·t + 3199 of the gathered edge features (the first
  window's block), on the whole packed matrix (the second window's one block), and writes rows 3200·t … 3200·t + 3199 of
  the 800000 × 16 result (the third window's block). The packed matrix is the sixteen matrices laid side by side:
  its column 128·q + d is column d of matrix q. So what point t writes back is block t of ONE function of the arrays,
  the quadratic forms; the blocks tile the result array (row r lies in block r / 3200), hence the array ends holding
  the quadratic forms. The program's last line views that 800000 × 16 array as 800000 × 4 × 4.
-/
import proofs.«116615_j9174050144889_2_alg».proof.Proof.Gen.KernelIdeal.Frame
import proofs.«116615_j9174050144889_2_alg».proof.Proof.KernelColumn
import proofs.«116615_j9174050144889_2_alg».proof.Proof.QForm
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Idealize.ShloMosaic.StableHlo

variable (m : (ℓ : Loc nD τ sig) → Buf (Elt Ideal) ℓ) (ρ : Dev nD → PrngReg)

theorem hz : (![0, 0] : Fin 2 → Nat) = fun _ => 0 := funext fun a => by fin_cases a <;> rfl

/-- The three index maps over the grid: the feature rows and the result rows move with the point, the packed
    matrix stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The edge features as the region finds them. -/
abbrev feat (c : Dev nD) : S800000x128.Idx → EReal := V m c main_v18

/-- The packed matrix as the region finds it: the sixteen matrices with the row axis moved first, flattened. -/
theorem packed_eq (c : Dev nD) : (V m c main_v20 : S128x2048.Idx → EReal)
    = shapeCast S128x2048 (transpose S128x16x128 [1, 0, 2] (m ((c : Thread nD τ).loc main_arg2)) Facts₀.transposes_S16x128x128_S128x16x128_1_0_2)
        Facts₀.shapeCasts_S128x16x128_S128x2048 := by
  show StableHlo.after hostOps0 (fun b => m (c, b)) (Proc.devRef .tc main_v20) = _
  after_results
  rfl

/-- Column 128·q + d of the packed matrix is column d of matrix q. -/
theorem packed_apply (c : Dev nD) (q : Fin 16) (k d : Fin 128) :
    (V m c main_v20 : S128x2048.Idx → EReal) (ix2 k (Block.wcol q d))
      = (m ((c : Thread nD τ).loc main_arg2) : S16x128x128.Idx → EReal) (ix3 q k d) := by
  rw [packed_eq]
  refine (shapeCast_apply _ _ (ix2 k (Block.wcol q d)) (ix3 k q d) (by
    rw [Shape.rowMajor_val_three, Shape.rowMajor_val_two]
    show (k.val * 16 + q.val) * 128 + d.val = k.val * 2048 + (128 * q.val + d.val)
    omega)).trans ?_
  exact transpose_apply [1, 0, 2] _ _ (ix3 k q d) (ix3 q k d) (fun b => by
    match b with
    | ⟨0, _⟩ => rfl
    | ⟨1, _⟩ => rfl
    | ⟨2, _⟩ => rfl)

/-- The first window's block at point t is rows 3200·t … of the features. -/
theorem iblk0_apply (c : Dev nD) (t : Fin cfg0.N) (p : Fin 3200) (k : Fin 128) (e : Fin 800000)
    (he : e.val = 3200 * t.val + p.val) :
    (iblk m c 0 t : Vec Ideal S3200x128 .f32) (ix2 p k) = feat m c (ix2 e k) := by
  obtain ⟨h0, h1, -⟩ := idx_facts t
  unfold iblk
  rw [View.read_apply]
  show (V m c main_v18 : S800000x128.Idx → EReal) _ = (V m c main_v18 : S800000x128.Idx → EReal) _
  refine congrArg (V m c main_v18 : S800000x128.Idx → EReal) ?_
  funext a
  apply Fin.ext
  match a with
  | ⟨0, _⟩ => show win0_0.index t (0 : Fin 2) * 3200 + 1 * p.val = e.val; rw [h0, he]; omega
  | ⟨1, _⟩ => show win0_0.index t (1 : Fin 2) * 128 + 1 * k.val = k.val; rw [h1]; omega

/-- The second window's block at every point is the whole packed matrix. -/
theorem iblk1_apply (c : Dev nD) (t : Fin cfg0.N) (k : Fin 128) (n : Fin 2048) :
    (iblk m c 1 t : Vec Ideal S128x2048 .f32) (ix2 k n) = (V m c main_v20 : S128x2048.Idx → EReal) (ix2 k n) := by
  obtain ⟨-, -, h0, h1, -⟩ := idx_facts t
  unfold iblk
  rw [View.read_apply]
  show (V m c main_v20 : S128x2048.Idx → EReal) _ = (V m c main_v20 : S128x2048.Idx → EReal) _
  refine congrArg (V m c main_v20 : S128x2048.Idx → EReal) ?_
  funext a
  apply Fin.ext
  match a with
  | ⟨0, _⟩ => show win0_1.index t (0 : Fin 2) * 128 + 1 * k.val = k.val; rw [h0]; omega
  | ⟨1, _⟩ => show win0_1.index t (1 : Fin 2) * 2048 + 1 * n.val = n.val; rw [h1]; omega

/-- The result array: the quadratic forms of the features in the sixteen matrices. -/
abbrev G (c : Dev nD) : S800000x16.Idx → EReal :=
  Cert.QForm.qform (feat m c) (m ((c : Thread nD τ).loc main_arg2))

/-- What point t writes back is block t of the quadratic forms. -/
theorem flushed_eq (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2]
  unfold out0_2
  rw [View.canon_unit_zero hz]
  simp only [View.ld_unit_zero (S := S3200x128) hz, View.ld_unit_zero (S := S128x2048) hz]
  funext j
  obtain ⟨p, q, rfl⟩ : ∃ (p : Fin 3200) (q : Fin 16), j = ix2 p q := ⟨j 0, j 1, eq_ix2 j⟩
  have ht : t.val < 250 := by have h := t.isLt; have hN : cfg0.N = 250 := N_0; omega
  obtain ⟨-, -, -, -, h0, h1⟩ := idx_facts t
  have hemb : ((cfg0.win 2).blk t).view.emb (ix2 p q)
      = (ix2 (⟨3200 * t.val + p.val, by have := p.isLt; omega⟩ : Fin 800000) q : S800000x16.Idx) := by
    funext a
    apply Fin.ext
    match a with
    | ⟨0, _⟩ => show win0_2.index t (0 : Fin 2) * 3200 + 1 * p.val = 3200 * t.val + p.val; rw [h0]; omega
    | ⟨1, _⟩ => show win0_2.index t (1 : Fin 2) * 16 + 1 * q.val = q.val; rw [h1]; omega
  rw [View.read_apply, hemb]
  exact Block.stored_eq_qform (iblk m c 0 t) (iblk m c 1 t) (feat m c) (m ((c : Thread nD τ).loc main_arg2)) p q _
    (fun k => iblk0_apply m c t p k _ rfl)
    (fun k d => (iblk1_apply m c t k _).trans (packed_apply m c q k d))

/-- An index of the result array is in point t's block iff each coordinate is in the block's range. -/
theorem mem_blk (t : Fin cfg0.N) (i : S800000x16.Idx) :
    i ∈ ((cfg0.win 2).blk t).view.set ↔ ∀ a : Fin 2, win0_2.index t a * S3200x16.size a ≤ (i a).val ∧ (i a).val < win0_2.index t a * S3200x16.size a + S3200x16.size a := by
  show i ∈ ((View.whole main_v21).slice (win0_2.rect t)).set ↔ _
  rw [View.set_slice_whole, Rect.mem_set_unit]
  exact Iff.rfl

/-- Every row of the result lies in some point's block: row r in block r / 3200. -/
theorem cover (i : S800000x16.Idx) : ∃ t : Fin cfg0.N, (cfg0.win 2).flush t = true ∧ i ∈ ((cfg0.win 2).blk t).view.set := by
  have hi0 : (i 0).val < 800000 := (i 0).isLt
  have hi1 : (i 1).val < 16 := (i 1).isLt
  have hN : cfg0.N = 250 := N_0
  let t : Fin cfg0.N := ⟨(i 0).val / 3200, by rw [hN]; omega⟩
  obtain ⟨-, -, -, -, h0, h1⟩ := idx_facts t
  refine ⟨t, flush0_2 t, ?_⟩
  rw [mem_blk]
  intro a
  match a with
  | ⟨0, _⟩ => show win0_2.index t (0 : Fin 2) * 3200 ≤ (i 0).val ∧ (i 0).val < win0_2.index t (0 : Fin 2) * 3200 + 3200; rw [h0]; show (i 0).val / 3200 * 3200 ≤ (i 0).val ∧ (i 0).val < (i 0).val / 3200 * 3200 + 3200; omega
  | ⟨1, _⟩ => show win0_2.index t (1 : Fin 2) * 16 ≤ (i 1).val ∧ (i 1).val < win0_2.index t (1 : Fin 2) * 16 + 16; rw [h1]; omega

/-- The result array after the region holds the quadratic forms. -/
theorem final (c : Dev nD) : (dats m 0 c).arrAt 2 cfg0.N = G m c :=
  (dats m 0 c).arrAt_eq_of_cover 2 (G m c) (fun t _ => flushed_eq m c t) cover

/-- The program's result: the quadratic forms viewed as 800000 × 4 × 4. -/
theorem tail_eq (c : Dev nD) :
    Pipeline.afterTail₀ cfgs (dats m) 0 (V0 m) [hostOps1] c main_v22
      = shapeCast S800000x4x4 (G m c) Facts₀.shapeCasts_S800000x16_S800000x4x4 := by
  unfold Pipeline.afterTail₀
  show StableHlo.after hostOps1 _ (Proc.devRef .tc main_v22) = _
  after_results
  rw [(Pipeline.withArrays_arr spec0 launch0.win.arr_inj c _ _ 2).trans (final m c)]
  rfl

/-- The run, read: the result at the quadratic forms (re-viewed), the arguments unchanged. -/
theorem run : θ_run defs (onTc (τ := τ) (main (F := Ideal))) ⟨m, fun _ => 0, ρ⟩ fun r => ∀ c : Dev nD,
      r.2.mem ((c.tc : Thread nD τ).loc main_v22) = shapeCast S800000x4x4 (G m c) Facts₀.shapeCasts_S800000x16_S800000x4x4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v22 (Pipeline.mem_restRefs_of main_v22 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Hand

end
-- ==== Proof.RefValue.lean ====
/-
  The reference, read entry by entry.

  The reference gathers the edge features into Z (one row of 128 numbers per edge), and for each of the sixteen
  matrices M_q multiplies Z by M_q, multiplies the product entry by entry with Z, and sums each row starting from zero;
  the sixteen row-sum vectors are set side by side as columns and tanh is applied. At the exact values the matrix
  product is the plain sum of products and the row sum a plain finite sum added to zero, so entry (e, q) is
      tanh (∑ d, (∑ k, Z(e,k) · M(q,k,d)) · Z(e,d)).
-/
import proofs.«116615_j9174050144889_2_alg».proof.Proof.Gen.ReferenceIdeal.Read
import proofs.«116615_j9174050144889_2_alg».proof.Proof.LibColumnJoin
import proofs.«116615_j9174050144889_2_alg».proof.Proof.QForm

noncomputable section

open scoped BigOperators

namespace Cert.ReferenceIdeal.RefValue

open Cert.ReferenceIdeal Cert.ReferenceIdeal.Gen Cert.ReferenceIdeal.Read Idealize.ShloMosaic Idealize.ShloMosaic.ValueIdx

/-- Column 0 of the reference, row e: the quadratic form of Z's row e in matrix 0. -/
theorem refcol0 (x0 : (⟨S50000x64, .f32⟩ : BufTy).Contents (Elt Ideal)) (x1 : (⟨S2x800000, .i32⟩ : BufTy).Contents (Elt Ideal))
    (x2 : (⟨S16x128x128, .f32⟩ : BufTy).Contents (Elt Ideal)) (e : Fin 800000) (u : Fin 1) :
    val_main_v99 (F := Ideal) x0 x1 x2 (ix2 e u)
      = ∑ d : Fin 128, (∑ k : Fin 128, val_main_v18 (F := Ideal) x0 x1 (ix2 e k) * x2 (ix3 (0 : Fin 16) k d))
          * val_main_v18 (F := Ideal) x0 x1 (ix2 e d) := by
  rw [val_main_v99_apply, val_main_v23_apply, val_main_cst_apply]
  show Ideal.ofBits .f32 0x00000000#32 + _ = _
  rw [Ideal.ofBits_zero_f32, zero_add]
  refine Finset.sum_congr rfl fun d _ => ?_
  rw [val_main_v22_apply, val_main_v21_apply]
  have e1 : idx_main_v23 (idx_main_v99 (ix2 e u)) d = ix2 e d :=
    funext fun a => Fin.ext (by match a with | ⟨0, _⟩ => rfl | ⟨1, _⟩ => rfl)
  rw [e1]
  show (∑ k : Fin 128, _) * _ = _
  refine congrArg (· * _) (Finset.sum_congr rfl fun k _ => ?_)
  rw [val_main_v20_apply, val_main_v19_apply]
  have e2 : lidx_main_v21 (ix2 e d) k = ix2 e k :=
    funext fun a => Fin.ext (by match a with | ⟨0, _⟩ => rfl | ⟨1, _⟩ => rfl)
  have e3 : idx_main_v19 (idx_main_v20 (ridx_main_v21 (ix2 e d) k)) = ix3 (0 : Fin 16) k d :=
    funext fun a => Fin.ext (by
      have hk := k.isLt; have hd := d.isLt
      match a with
      | ⟨0, _⟩ => rfl
      | ⟨1, _⟩ => show (k.val * 128 + d.val) / 128 % 128 = k.val; omega
      | ⟨2, _⟩ => show (k.val * 128 + d.val) % 128 = d.val; omega)
  rw [e2, e3]

/-- Column 1 of the reference, row e: the quadratic form of Z's row e in matrix 1. -/
theorem refcol1 (x0 : (⟨S50000x64, .f32⟩ : BufTy).Contents (Elt Ideal)) (x1 : (⟨S2x800000, .i32⟩ : BufTy).Contents (Elt Ideal))
    (x2 : (⟨S16x128x128, .f32⟩ : BufTy).Contents (Elt Ideal)) (e : Fin 800000) (u : Fin 1) :
    val_main_v100 (F := Ideal) x0 x1 x2 (ix2 e u)
      = ∑ d : Fin 128, (∑ k : Fin 128, val_main_v18 (F := Ideal) x0 x1 (ix2 e k) * x2 (ix3 (1 : Fin 16) k d))
          * val_main_v18 (F := Ideal) x0 x1 (ix2 e d) := by
  rw [val_main_v100_apply, val_main_v28_apply, val_main_cst_3_apply]
  show Ideal.ofBits .f32 0x00000000#32 + _ = _
  rw [Ideal.ofBits_zero_f32, zero_add]
  refine Finset.sum_congr rfl fun d _ => ?_
  rw [val_main_v27_apply, val_main_v26_apply]
  have e1 : idx_main_v28 (idx_main_v100 (ix2 e u)) d = ix2 e d :=
    funext fun a => Fin.ext (by match a with | ⟨0, _⟩ => rfl | ⟨1, _⟩ => rfl)
  rw [e1]
  show (∑ k : Fin 128, _) * _ = _
  refine congrArg (· * _) (Finset.sum_congr rfl fun k _ => ?_)
  rw [val_main_v25_apply, val_main_v24_apply]
  have e2 : lidx_main_v26 (ix2 e d) k = ix2 e k :=
    funext fun a => Fin.ext (by match a with | ⟨0, _⟩ => rfl | ⟨1, _⟩ => rfl)
  have e3 : idx_main_v24 (idx_main_v25 (ridx_main_v26 (ix2 e d) k)) = ix3 (1 : Fin 16) k d :=
    funext fun a => Fin.ext (by
      have hk := k.isLt; have hd := d.isLt
      match a with
      | ⟨0, _⟩ => rfl
      | ⟨1, _⟩ => show (k.val * 128 + d.val) / 128 % 128 = k.val; omega
      | ⟨2, _⟩ => show (k.val * 128 + d.val) % 128 = d.val; omega)
  rw [e2, e3]

/-- Column 2 of the reference, row e: the quadratic form of Z's row e in matrix 2. -/
theorem refcol2 (x0 : (⟨S50000x64, .f32⟩ : BufTy).Contents (Elt Ideal)) (x1 : (⟨S2x800000, .i32⟩ : BufTy).Contents (Elt Ideal))
    (x2 : (⟨S16x128x128, .f32⟩ : BufTy).Contents (Elt Ideal)) (e : Fin 800000) (u : Fin 1) :
    val_main_v101 (F := Ideal) x0 x1 x2 (ix2 e u)
      = ∑ d : Fin 128, (∑ k : Fin 128, val_main_v18 (F := Ideal) x0 x1 (ix2 e k) * x2 (ix3 (2 : Fin 16) k d))
          * val_main_v18 (F := Ideal) x0 x1 (ix2 e d) := by
  rw [val_main_v101_apply, val_main_v33_apply, val_main_cst_4_apply]
  show Ideal.ofBits .f32 0x00000000#32 + _ = _
  rw [Ideal.ofBits_zero_f32, zero_add]
  refine Finset.sum_congr rfl fun d _ => ?_
  rw [val_main_v32_apply, val_main_v31_apply]
  have e1 : idx_main_v33 (idx_main_v101 (ix2 e u)) d = ix2 e d :=
    funext fun a => Fin.ext (by match a with | ⟨0, _⟩ => rfl | ⟨1, _⟩ => rfl)
  rw [e1]
  show (∑ k : Fin 128, _) * _ = _
  refine congrArg (· * _) (Finset.sum_congr rfl fun k _ => ?_)
  rw [val_main_v30_apply, val_main_v29_apply]
  have e2 : lidx_main_v31 (ix2 e d) k = ix2 e k :=
    funext fun a => Fin.ext (by match a with | ⟨0, _⟩ => rfl | ⟨1, _⟩ => rfl)
  have e3 : idx_main_v29 (idx_main_v30 (ridx_main_v31 (ix2 e d) k)) = ix3 (2 : Fin 16) k d :=
    funext fun a => Fin.ext (by
      have hk := k.isLt; have hd := d.isLt
      match a with
      | ⟨0, _⟩ => rfl
      | ⟨1, _⟩ => show (k.val * 128 + d.val) / 128 % 128 = k.val; omega
      | ⟨2, _⟩ => show (k.val * 128 + d.val) % 128 = d.val; omega)
  rw [e2, e3]

/-- Column 3 of the reference, row e: the quadratic form of Z's row e in matrix 3. -/
theorem refcol3 (x0 : (⟨S50000x64, .f32⟩ : BufTy).Contents (Elt Ideal)) (x1 : (⟨S2x800000, .i32⟩ : BufTy).Contents (Elt Ideal))
    (x2 : (⟨S16x128x128, .f32⟩ : BufTy).Contents (Elt Ideal)) (e : Fin 800000) (u : Fin 1) :
    val_main_v102 (F := Ideal) x0 x1 x2 (ix2 e u)
      = ∑ d : Fin 128, (∑ k : Fin 128, val_main_v18 (F := Ideal) x0 x1 (ix2 e k) * x2 (ix3 (3 : Fin 16) k d))
          * val_main_v18 (F := Ideal) x0 x1 (ix2 e d) := by
  rw [val_main_v102_apply, val_main_v38_apply, val_main_cst_5_apply]
  show Ideal.ofBits .f32 0x00000000#32 + _ = _
  rw [Ideal.ofBits_zero_f32, zero_add]
  refine Finset.sum_congr rfl fun d _ => ?_
  rw [val_main_v37_apply, val_main_v36_apply]
  have e1 : idx_main_v38 (idx_main_v102 (ix2 e u)) d = ix2 e d :=
    funext fun a => Fin.ext (by match a with | ⟨0, _⟩ => rfl | ⟨1, _⟩ => rfl)
  rw [e1]
  show (∑ k : Fin 128, _) * _ = _
  refine congrArg (· * _) (Finset.sum_congr rfl fun k _ => ?_)
  rw [val_main_v35_apply, val_main_v34_apply]
  have e2 : lidx_main_v36 (ix2 e d) k = ix2 e k :=
    funext fun a => Fin.ext (by match a with | ⟨0, _⟩ => rfl | ⟨1, _⟩ => rfl)
  have e3 : idx_main_v34 (idx_main_v35 (ridx_main_v36 (ix2 e d) k)) = ix3 (3 : Fin 16) k d :=
    funext fun a => Fin.ext (by
      have hk := k.isLt; have hd := d.isLt
      match a with
      | ⟨0, _⟩ => rfl
      | ⟨1, _⟩ => show (k.val * 128 + d.val) / 128 % 128 = k.val; omega
      | ⟨2, _⟩ => show (k.val * 128 + d.val) % 128 = d.val; omega)
  rw [e2, e3]

/-- Column 4 of the reference, row e: the quadratic form of Z's row e in matrix 4. -/
theorem refcol4 (x0 : (⟨S50000x64, .f32⟩ : BufTy).Contents (Elt Ideal)) (x1 : (⟨S2x800000, .i32⟩ : BufTy).Contents (Elt Ideal))
    (x2 : (⟨S16x128x128, .f32⟩ : BufTy).Contents (Elt Ideal)) (e : Fin 800000) (u : Fin 1) :
    val_main_v103 (F := Ideal) x0 x1 x2 (ix2 e u)
      = ∑ d : Fin 128, (∑ k : Fin 128, val_main_v18 (F := Ideal) x0 x1 (ix2 e k) * x2 (ix3 (4 : Fin 16) k d))
          * val_main_v18 (F := Ideal) x0 x1 (ix2 e d) := by
  rw [val_main_v103_apply, val_main_v43_apply, val_main_cst_6_apply]
  show Ideal.ofBits .f32 0x00000000#32 + _ = _
  rw [Ideal.ofBits_zero_f32, zero_add]
  refine Finset.sum_congr rfl fun d _ => ?_
  rw [val_main_v42_apply, val_main_v41_apply]
  have e1 : idx_main_v43 (idx_main_v103 (ix2 e u)) d = ix2 e d :=
    funext fun a => Fin.ext (by match a with | ⟨0, _⟩ => rfl | ⟨1, _⟩ => rfl)
  rw [e1]
  show (∑ k : Fin 128, _) * _ = _
  refine congrArg (· * _) (Finset.sum_congr rfl fun k _ => ?_)
  rw [val_main_v40_apply, val_main_v39_apply]
  have e2 : lidx_main_v41 (ix2 e d) k = ix2 e k :=
    funext fun a => Fin.ext (by match a with | ⟨0, _⟩ => rfl | ⟨1, _⟩ => rfl)
  have e3 : idx_main_v39 (idx_main_v40 (ridx_main_v41 (ix2 e d) k)) = ix3 (4 : Fin 16) k d :=
    funext fun a => Fin.ext (by
      have hk := k.isLt; have hd := d.isLt
      match a with
      | ⟨0, _⟩ => rfl
      | ⟨1, _⟩ => show (k.val * 128 + d.val) / 128 % 128 = k.val; omega
      | ⟨2, _⟩ => show (k.val * 128 + d.val) % 128 = d.val; omega)
  rw [e2, e3]

/-- Column 5 of the reference, row e: the quadratic form of Z's row e in matrix 5. -/
theorem refcol5 (x0 : (⟨S50000x64, .f32⟩ : BufTy).Contents (Elt Ideal)) (x1 : (⟨S2x800000, .i32⟩ : BufTy).Contents (Elt Ideal))
    (x2 : (⟨S16x128x128, .f32⟩ : BufTy).Contents (Elt Ideal)) (e : Fin 800000) (u : Fin 1) :
    val_main_v104 (F := Ideal) x0 x1 x2 (ix2 e u)
      = ∑ d : Fin 128, (∑ k : Fin 128, val_main_v18 (F := Ideal) x0 x1 (ix2 e k) * x2 (ix3 (5 : Fin 16) k d))
          * val_main_v18 (F := Ideal) x0 x1 (ix2 e d) := by
  rw [val_main_v104_apply, val_main_v48_apply, val_main_cst_7_apply]
  show Ideal.ofBits .f32 0x00000000#32 + _ = _
  rw [Ideal.ofBits_zero_f32, zero_add]
  refine Finset.sum_congr rfl fun d _ => ?_
  rw [val_main_v47_apply, val_main_v46_apply]
  have e1 : idx_main_v48 (idx_main_v104 (ix2 e u)) d = ix2 e d :=
    funext fun a => Fin.ext (by match a with | ⟨0, _⟩ => rfl | ⟨1, _⟩ => rfl)
  rw [e1]
  show (∑ k : Fin 128, _) * _ = _
  refine congrArg (· * _) (Finset.sum_congr rfl fun k _ => ?_)
  rw [val_main_v45_apply, val_main_v44_apply]
  have e2 : lidx_main_v46 (ix2 e d) k = ix2 e k :=
    funext fun a => Fin.ext (by match a with | ⟨0, _⟩ => rfl | ⟨1, _⟩ => rfl)
  have e3 : idx_main_v44 (idx_main_v45 (ridx_main_v46 (ix2 e d) k)) = ix3 (5 : Fin 16) k d :=
    funext fun a => Fin.ext (by
      have hk := k.isLt; have hd := d.isLt
      match a with
      | ⟨0, _⟩ => rfl
      | ⟨1, _⟩ => show (k.val * 128 + d.val) / 128 % 128 = k.val; omega
      | ⟨2, _⟩ => show (k.val * 128 + d.val) % 128 = d.val; omega)
  rw [e2, e3]

/-- Column 6 of the reference, row e: the quadratic form of Z's row e in matrix 6. -/
theorem refcol6 (x0 : (⟨S50000x64, .f32⟩ : BufTy).Contents (Elt Ideal)) (x1 : (⟨S2x800000, .i32⟩ : BufTy).Contents (Elt Ideal))
    (x2 : (⟨S16x128x128, .f32⟩ : BufTy).Contents (Elt Ideal)) (e : Fin 800000) (u : Fin 1) :
    val_main_v105 (F := Ideal) x0 x1 x2 (ix2 e u)
      = ∑ d : Fin 128, (∑ k : Fin 128, val_main_v18 (F := Ideal) x0 x1 (ix2 e k) * x2 (ix3 (6 : Fin 16) k d))
          * val_main_v18 (F := Ideal) x0 x1 (ix2 e d) := by
  rw [val_main_v105_apply, val_main_v53_apply, val_main_cst_8_apply]
  show Ideal.ofBits .f32 0x00000000#32 + _ = _
  rw [Ideal.ofBits_zero_f32, zero_add]
  refine Finset.sum_congr rfl fun d _ => ?_
  rw [val_main_v52_apply, val_main_v51_apply]
  have e1 : idx_main_v53 (idx_main_v105 (ix2 e u)) d = ix2 e d :=
    funext fun a => Fin.ext (by match a with | ⟨0, _⟩ => rfl | ⟨1, _⟩ => rfl)
  rw [e1]
  show (∑ k : Fin 128, _) * _ = _
  refine congrArg (· * _) (Finset.sum_congr rfl fun k _ => ?_)
  rw [val_main_v50_apply, val_main_v49_apply]
  have e2 : lidx_main_v51 (ix2 e d) k = ix2 e k :=
    funext fun a => Fin.ext (by match a with | ⟨0, _⟩ => rfl | ⟨1, _⟩ => rfl)
  have e3 : idx_main_v49 (idx_main_v50 (ridx_main_v51 (ix2 e d) k)) = ix3 (6 : Fin 16) k d :=
    funext fun a => Fin.ext (by
      have hk := k.isLt; have hd := d.isLt
      match a with
      | ⟨0, _⟩ => rfl
      | ⟨1, _⟩ => show (k.val * 128 + d.val) / 128 % 128 = k.val; omega
      | ⟨2, _⟩ => show (k.val * 128 + d.val) % 128 = d.val; omega)
  rw [e2, e3]

/-- Column 7 of the reference, row e: the quadratic form of Z's row e in matrix 7. -/
theorem refcol7 (x0 : (⟨S50000x64, .f32⟩ : BufTy).Contents (Elt Ideal)) (x1 : (⟨S2x800000, .i32⟩ : BufTy).Contents (Elt Ideal))
    (x2 : (⟨S16x128x128, .f32⟩ : BufTy).Contents (Elt Ideal)) (e : Fin 800000) (u : Fin 1) :
    val_main_v106 (F := Ideal) x0 x1 x2 (ix2 e u)
      = ∑ d : Fin 128, (∑ k : Fin 128, val_main_v18 (F := Ideal) x0 x1 (ix2 e k) * x2 (ix3 (7 : Fin 16) k d))
          * val_main_v18 (F := Ideal) x0 x1 (ix2 e d) := by
  rw [val_main_v106_apply, val_main_v58_apply, val_main_cst_9_apply]
  show Ideal.ofBits .f32 0x00000000#32 + _ = _
  rw [Ideal.ofBits_zero_f32, zero_add]
  refine Finset.sum_congr rfl fun d _ => ?_
  rw [val_main_v57_apply, val_main_v56_apply]
  have e1 : idx_main_v58 (idx_main_v106 (ix2 e u)) d = ix2 e d :=
    funext fun a => Fin.ext (by match a with | ⟨0, _⟩ => rfl | ⟨1, _⟩ => rfl)
  rw [e1]
  show (∑ k : Fin 128, _) * _ = _
  refine congrArg (· * _) (Finset.sum_congr rfl fun k _ => ?_)
  rw [val_main_v55_apply, val_main_v54_apply]
  have e2 : lidx_main_v56 (ix2 e d) k = ix2 e k :=
    funext fun a => Fin.ext (by match a with | ⟨0, _⟩ => rfl | ⟨1, _⟩ => rfl)
  have e3 : idx_main_v54 (idx_main_v55 (ridx_main_v56 (ix2 e d) k)) = ix3 (7 : Fin 16) k d :=
    funext fun a => Fin.ext (by
      have hk := k.isLt; have hd := d.isLt
      match a with
      | ⟨0, _⟩ => rfl
      | ⟨1, _⟩ => show (k.val * 128 + d.val) / 128 % 128 = k.val; omega
      | ⟨2, _⟩ => show (k.val * 128 + d.val) % 128 = d.val; omega)
  rw [e2, e3]

/-- Column 8 of the reference, row e: the quadratic form of Z's row e in matrix 8. -/
theorem refcol8 (x0 : (⟨S50000x64, .f32⟩ : BufTy).Contents (Elt Ideal)) (x1 : (⟨S2x800000, .i32⟩ : BufTy).Contents (Elt Ideal))
    (x2 : (⟨S16x128x128, .f32⟩ : BufTy).Contents (Elt Ideal)) (e : Fin 800000) (u : Fin 1) :
    val_main_v107 (F := Ideal) x0 x1 x2 (ix2 e u)
      = ∑ d : Fin 128, (∑ k : Fin 128, val_main_v18 (F := Ideal) x0 x1 (ix2 e k) * x2 (ix3 (8 : Fin 16) k d))
          * val_main_v18 (F := Ideal) x0 x1 (ix2 e d) := by
  rw [val_main_v107_apply, val_main_v63_apply, val_main_cst_10_apply]
  show Ideal.ofBits .f32 0x00000000#32 + _ = _
  rw [Ideal.ofBits_zero_f32, zero_add]
  refine Finset.sum_congr rfl fun d _ => ?_
  rw [val_main_v62_apply, val_main_v61_apply]
  have e1 : idx_main_v63 (idx_main_v107 (ix2 e u)) d = ix2 e d :=
    funext fun a => Fin.ext (by match a with | ⟨0, _⟩ => rfl | ⟨1, _⟩ => rfl)
  rw [e1]
  show (∑ k : Fin 128, _) * _ = _
  refine congrArg (· * _) (Finset.sum_congr rfl fun k _ => ?_)
  rw [val_main_v60_apply, val_main_v59_apply]
  have e2 : lidx_main_v61 (ix2 e d) k = ix2 e k :=
    funext fun a => Fin.ext (by match a with | ⟨0, _⟩ => rfl | ⟨1, _⟩ => rfl)
  have e3 : idx_main_v59 (idx_main_v60 (ridx_main_v61 (ix2 e d) k)) = ix3 (8 : Fin 16) k d :=
    funext fun a => Fin.ext (by
      have hk := k.isLt; have hd := d.isLt
      match a with
      | ⟨0, _⟩ => rfl
      | ⟨1, _⟩ => show (k.val * 128 + d.val) / 128 % 128 = k.val; omega
      | ⟨2, _⟩ => show (k.val * 128 + d.val) % 128 = d.val; omega)
  rw [e2, e3]

/-- Column 9 of the reference, row e: the quadratic form of Z's row e in matrix 9. -/
theorem refcol9 (x0 : (⟨S50000x64, .f32⟩ : BufTy).Contents (Elt Ideal)) (x1 : (⟨S2x800000, .i32⟩ : BufTy).Contents (Elt Ideal))
    (x2 : (⟨S16x128x128, .f32⟩ : BufTy).Contents (Elt Ideal)) (e : Fin 800000) (u : Fin 1) :
    val_main_v108 (F := Ideal) x0 x1 x2 (ix2 e u)
      = ∑ d : Fin 128, (∑ k : Fin 128, val_main_v18 (F := Ideal) x0 x1 (ix2 e k) * x2 (ix3 (9 : Fin 16) k d))
          * val_main_v18 (F := Ideal) x0 x1 (ix2 e d) := by
  rw [val_main_v108_apply, val_main_v68_apply, val_main_cst_11_apply]
  show Ideal.ofBits .f32 0x00000000#32 + _ = _
  rw [Ideal.ofBits_zero_f32, zero_add]
  refine Finset.sum_congr rfl fun d _ => ?_
  rw [val_main_v67_apply, val_main_v66_apply]
  have e1 : idx_main_v68 (idx_main_v108 (ix2 e u)) d = ix2 e d :=
    funext fun a => Fin.ext (by match a with | ⟨0, _⟩ => rfl | ⟨1, _⟩ => rfl)
  rw [e1]
  show (∑ k : Fin 128, _) * _ = _
  refine congrArg (· * _) (Finset.sum_congr rfl fun k _ => ?_)
  rw [val_main_v65_apply, val_main_v64_apply]
  have e2 : lidx_main_v66 (ix2 e d) k = ix2 e k :=
    funext fun a => Fin.ext (by match a with | ⟨0, _⟩ => rfl | ⟨1, _⟩ => rfl)
  have e3 : idx_main_v64 (idx_main_v65 (ridx_main_v66 (ix2 e d) k)) = ix3 (9 : Fin 16) k d :=
    funext fun a => Fin.ext (by
      have hk := k.isLt; have hd := d.isLt
      match a with
      | ⟨0, _⟩ => rfl
      | ⟨1, _⟩ => show (k.val * 128 + d.val) / 128 % 128 = k.val; omega
      | ⟨2, _⟩ => show (k.val * 128 + d.val) % 128 = d.val; omega)
  rw [e2, e3]

/-- Column 10 of the reference, row e: the quadratic form of Z's row e in matrix 10. -/
theorem refcol10 (x0 : (⟨S50000x64, .f32⟩ : BufTy).Contents (Elt Ideal)) (x1 : (⟨S2x800000, .i32⟩ : BufTy).Contents (Elt Ideal))
    (x2 : (⟨S16x128x128, .f32⟩ : BufTy).Contents (Elt Ideal)) (e : Fin 800000) (u : Fin 1) :
    val_main_v109 (F := Ideal) x0 x1 x2 (ix2 e u)
      = ∑ d : Fin 128, (∑ k : Fin 128, val_main_v18 (F := Ideal) x0 x1 (ix2 e k) * x2 (ix3 (10 : Fin 16) k d))
          * val_main_v18 (F := Ideal) x0 x1 (ix2 e d) := by
  rw [val_main_v109_apply, val_main_v73_apply, val_main_cst_12_apply]
  show Ideal.ofBits .f32 0x00000000#32 + _ = _
  rw [Ideal.ofBits_zero_f32, zero_add]
  refine Finset.sum_congr rfl fun d _ => ?_
  rw [val_main_v72_apply, val_main_v71_apply]
  have e1 : idx_main_v73 (idx_main_v109 (ix2 e u)) d = ix2 e d :=
    funext fun a => Fin.ext (by match a with | ⟨0, _⟩ => rfl | ⟨1, _⟩ => rfl)
  rw [e1]
  show (∑ k : Fin 128, _) * _ = _
  refine congrArg (· * _) (Finset.sum_congr rfl fun k _ => ?_)
  rw [val_main_v70_apply, val_main_v69_apply]
  have e2 : lidx_main_v71 (ix2 e d) k = ix2 e k :=
    funext fun a => Fin.ext (by match a with | ⟨0, _⟩ => rfl | ⟨1, _⟩ => rfl)
  have e3 : idx_main_v69 (idx_main_v70 (ridx_main_v71 (ix2 e d) k)) = ix3 (10 : Fin 16) k d :=
    funext fun a => Fin.ext (by
      have hk := k.isLt; have hd := d.isLt
      match a with
      | ⟨0, _⟩ => rfl
      | ⟨1, _⟩ => show (k.val * 128 + d.val) / 128 % 128 = k.val; omega
      | ⟨2, _⟩ => show (k.val * 128 + d.val) % 128 = d.val; omega)
  rw [e2, e3]

/-- Column 11 of the reference, row e: the quadratic form of Z's row e in matrix 11. -/
theorem refcol11 (x0 : (⟨S50000x64, .f32⟩ : BufTy).Contents (Elt Ideal)) (x1 : (⟨S2x800000, .i32⟩ : BufTy).Contents (Elt Ideal))
    (x2 : (⟨S16x128x128, .f32⟩ : BufTy).Contents (Elt Ideal)) (e : Fin 800000) (u : Fin 1) :
    val_main_v110 (F := Ideal) x0 x1 x2 (ix2 e u)
      = ∑ d : Fin 128, (∑ k : Fin 128, val_main_v18 (F := Ideal) x0 x1 (ix2 e k) * x2 (ix3 (11 : Fin 16) k d))
          * val_main_v18 (F := Ideal) x0 x1 (ix2 e d) := by
  rw [val_main_v110_apply, val_main_v78_apply, val_main_cst_13_apply]
  show Ideal.ofBits .f32 0x00000000#32 + _ = _
  rw [Ideal.ofBits_zero_f32, zero_add]
  refine Finset.sum_congr rfl fun d _ => ?_
  rw [val_main_v77_apply, val_main_v76_apply]
  have e1 : idx_main_v78 (idx_main_v110 (ix2 e u)) d = ix2 e d :=
    funext fun a => Fin.ext (by match a with | ⟨0, _⟩ => rfl | ⟨1, _⟩ => rfl)
  rw [e1]
  show (∑ k : Fin 128, _) * _ = _
  refine congrArg (· * _) (Finset.sum_congr rfl fun k _ => ?_)
  rw [val_main_v75_apply, val_main_v74_apply]
  have e2 : lidx_main_v76 (ix2 e d) k = ix2 e k :=
    funext fun a => Fin.ext (by match a with | ⟨0, _⟩ => rfl | ⟨1, _⟩ => rfl)
  have e3 : idx_main_v74 (idx_main_v75 (ridx_main_v76 (ix2 e d) k)) = ix3 (11 : Fin 16) k d :=
    funext fun a => Fin.ext (by
      have hk := k.isLt; have hd := d.isLt
      match a with
      | ⟨0, _⟩ => rfl
      | ⟨1, _⟩ => show (k.val * 128 + d.val) / 128 % 128 = k.val; omega
      | ⟨2, _⟩ => show (k.val * 128 + d.val) % 128 = d.val; omega)
  rw [e2, e3]

/-- Column 12 of the reference, row e: the quadratic form of Z's row e in matrix 12. -/
theorem refcol12 (x0 : (⟨S50000x64, .f32⟩ : BufTy).Contents (Elt Ideal)) (x1 : (⟨S2x800000, .i32⟩ : BufTy).Contents (Elt Ideal))
    (x2 : (⟨S16x128x128, .f32⟩ : BufTy).Contents (Elt Ideal)) (e : Fin 800000) (u : Fin 1) :
    val_main_v111 (F := Ideal) x0 x1 x2 (ix2 e u)
      = ∑ d : Fin 128, (∑ k : Fin 128, val_main_v18 (F := Ideal) x0 x1 (ix2 e k) * x2 (ix3 (12 : Fin 16) k d))
          * val_main_v18 (F := Ideal) x0 x1 (ix2 e d) := by
  rw [val_main_v111_apply, val_main_v83_apply, val_main_cst_14_apply]
  show Ideal.ofBits .f32 0x00000000#32 + _ = _
  rw [Ideal.ofBits_zero_f32, zero_add]
  refine Finset.sum_congr rfl fun d _ => ?_
  rw [val_main_v82_apply, val_main_v81_apply]
  have e1 : idx_main_v83 (idx_main_v111 (ix2 e u)) d = ix2 e d :=
    funext fun a => Fin.ext (by match a with | ⟨0, _⟩ => rfl | ⟨1, _⟩ => rfl)
  rw [e1]
  show (∑ k : Fin 128, _) * _ = _
  refine congrArg (· * _) (Finset.sum_congr rfl fun k _ => ?_)
  rw [val_main_v80_apply, val_main_v79_apply]
  have e2 : lidx_main_v81 (ix2 e d) k = ix2 e k :=
    funext fun a => Fin.ext (by match a with | ⟨0, _⟩ => rfl | ⟨1, _⟩ => rfl)
  have e3 : idx_main_v79 (idx_main_v80 (ridx_main_v81 (ix2 e d) k)) = ix3 (12 : Fin 16) k d :=
    funext fun a => Fin.ext (by
      have hk := k.isLt; have hd := d.isLt
      match a with
      | ⟨0, _⟩ => rfl
      | ⟨1, _⟩ => show (k.val * 128 + d.val) / 128 % 128 = k.val; omega
      | ⟨2, _⟩ => show (k.val * 128 + d.val) % 128 = d.val; omega)
  rw [e2, e3]

/-- Column 13 of the reference, row e: the quadratic form of Z's row e in matrix 13. -/
theorem refcol13 (x0 : (⟨S50000x64, .f32⟩ : BufTy).Contents (Elt Ideal)) (x1 : (⟨S2x800000, .i32⟩ : BufTy).Contents (Elt Ideal))
    (x2 : (⟨S16x128x128, .f32⟩ : BufTy).Contents (Elt Ideal)) (e : Fin 800000) (u : Fin 1) :
    val_main_v112 (F := Ideal) x0 x1 x2 (ix2 e u)
      = ∑ d : Fin 128, (∑ k : Fin 128, val_main_v18 (F := Ideal) x0 x1 (ix2 e k) * x2 (ix3 (13 : Fin 16) k d))
          * val_main_v18 (F := Ideal) x0 x1 (ix2 e d) := by
  rw [val_main_v112_apply, val_main_v88_apply, val_main_cst_15_apply]
  show Ideal.ofBits .f32 0x00000000#32 + _ = _
  rw [Ideal.ofBits_zero_f32, zero_add]
  refine Finset.sum_congr rfl fun d _ => ?_
  rw [val_main_v87_apply, val_main_v86_apply]
  have e1 : idx_main_v88 (idx_main_v112 (ix2 e u)) d = ix2 e d :=
    funext fun a => Fin.ext (by match a with | ⟨0, _⟩ => rfl | ⟨1, _⟩ => rfl)
  rw [e1]
  show (∑ k : Fin 128, _) * _ = _
  refine congrArg (· * _) (Finset.sum_congr rfl fun k _ => ?_)
  rw [val_main_v85_apply, val_main_v84_apply]
  have e2 : lidx_main_v86 (ix2 e d) k = ix2 e k :=
    funext fun a => Fin.ext (by match a with | ⟨0, _⟩ => rfl | ⟨1, _⟩ => rfl)
  have e3 : idx_main_v84 (idx_main_v85 (ridx_main_v86 (ix2 e d) k)) = ix3 (13 : Fin 16) k d :=
    funext fun a => Fin.ext (by
      have hk := k.isLt; have hd := d.isLt
      match a with
      | ⟨0, _⟩ => rfl
      | ⟨1, _⟩ => show (k.val * 128 + d.val) / 128 % 128 = k.val; omega
      | ⟨2, _⟩ => show (k.val * 128 + d.val) % 128 = d.val; omega)
  rw [e2, e3]

/-- Column 14 of the reference, row e: the quadratic form of Z's row e in matrix 14. -/
theorem refcol14 (x0 : (⟨S50000x64, .f32⟩ : BufTy).Contents (Elt Ideal)) (x1 : (⟨S2x800000, .i32⟩ : BufTy).Contents (Elt Ideal))
    (x2 : (⟨S16x128x128, .f32⟩ : BufTy).Contents (Elt Ideal)) (e : Fin 800000) (u : Fin 1) :
    val_main_v113 (F := Ideal) x0 x1 x2 (ix2 e u)
      = ∑ d : Fin 128, (∑ k : Fin 128, val_main_v18 (F := Ideal) x0 x1 (ix2 e k) * x2 (ix3 (14 : Fin 16) k d))
          * val_main_v18 (F := Ideal) x0 x1 (ix2 e d) := by
  rw [val_main_v113_apply, val_main_v93_apply, val_main_cst_16_apply]
  show Ideal.ofBits .f32 0x00000000#32 + _ = _
  rw [Ideal.ofBits_zero_f32, zero_add]
  refine Finset.sum_congr rfl fun d _ => ?_
  rw [val_main_v92_apply, val_main_v91_apply]
  have e1 : idx_main_v93 (idx_main_v113 (ix2 e u)) d = ix2 e d :=
    funext fun a => Fin.ext (by match a with | ⟨0, _⟩ => rfl | ⟨1, _⟩ => rfl)
  rw [e1]
  show (∑ k : Fin 128, _) * _ = _
  refine congrArg (· * _) (Finset.sum_congr rfl fun k _ => ?_)
  rw [val_main_v90_apply, val_main_v89_apply]
  have e2 : lidx_main_v91 (ix2 e d) k = ix2 e k :=
    funext fun a => Fin.ext (by match a with | ⟨0, _⟩ => rfl | ⟨1, _⟩ => rfl)
  have e3 : idx_main_v89 (idx_main_v90 (ridx_main_v91 (ix2 e d) k)) = ix3 (14 : Fin 16) k d :=
    funext fun a => Fin.ext (by
      have hk := k.isLt; have hd := d.isLt
      match a with
      | ⟨0, _⟩ => rfl
      | ⟨1, _⟩ => show (k.val * 128 + d.val) / 128 % 128 = k.val; omega
      | ⟨2, _⟩ => show (k.val * 128 + d.val) % 128 = d.val; omega)
  rw [e2, e3]

/-- Column 15 of the reference, row e: the quadratic form of Z's row e in matrix 15. -/
theorem refcol15 (x0 : (⟨S50000x64, .f32⟩ : BufTy).Contents (Elt Ideal)) (x1 : (⟨S2x800000, .i32⟩ : BufTy).Contents (Elt Ideal))
    (x2 : (⟨S16x128x128, .f32⟩ : BufTy).Contents (Elt Ideal)) (e : Fin 800000) (u : Fin 1) :
    val_main_v114 (F := Ideal) x0 x1 x2 (ix2 e u)
      = ∑ d : Fin 128, (∑ k : Fin 128, val_main_v18 (F := Ideal) x0 x1 (ix2 e k) * x2 (ix3 (15 : Fin 16) k d))
          * val_main_v18 (F := Ideal) x0 x1 (ix2 e d) := by
  rw [val_main_v114_apply, val_main_v98_apply, val_main_cst_17_apply]
  show Ideal.ofBits .f32 0x00000000#32 + _ = _
  rw [Ideal.ofBits_zero_f32, zero_add]
  refine Finset.sum_congr rfl fun d _ => ?_
  rw [val_main_v97_apply, val_main_v96_apply]
  have e1 : idx_main_v98 (idx_main_v114 (ix2 e u)) d = ix2 e d :=
    funext fun a => Fin.ext (by match a with | ⟨0, _⟩ => rfl | ⟨1, _⟩ => rfl)
  rw [e1]
  show (∑ k : Fin 128, _) * _ = _
  refine congrArg (· * _) (Finset.sum_congr rfl fun k _ => ?_)
  rw [val_main_v95_apply, val_main_v94_apply]
  have e2 : lidx_main_v96 (ix2 e d) k = ix2 e k :=
    funext fun a => Fin.ext (by match a with | ⟨0, _⟩ => rfl | ⟨1, _⟩ => rfl)
  have e3 : idx_main_v94 (idx_main_v95 (ridx_main_v96 (ix2 e d) k)) = ix3 (15 : Fin 16) k d :=
    funext fun a => Fin.ext (by
      have hk := k.isLt; have hd := d.isLt
      match a with
      | ⟨0, _⟩ => rfl
      | ⟨1, _⟩ => show (k.val * 128 + d.val) / 128 % 128 = k.val; omega
      | ⟨2, _⟩ => show (k.val * 128 + d.val) % 128 = d.val; omega)
  rw [e2, e3]

/-- The reference's array before its last re-arrangement is the quadratic forms of its gathered features. -/
theorem tanh_stage_eq (x0 : (⟨S50000x64, .f32⟩ : BufTy).Contents (Elt Ideal)) (x1 : (⟨S2x800000, .i32⟩ : BufTy).Contents (Elt Ideal))
    (x2 : (⟨S16x128x128, .f32⟩ : BufTy).Contents (Elt Ideal)) :
    val_main_v116 (F := Ideal) x0 x1 x2 = Cert.QForm.qform (val_main_v18 (F := Ideal) x0 x1) x2 := by
  funext i
  obtain ⟨e, q, rfl⟩ : ∃ (e : Fin 800000) (q : Fin 16), i = ix2 e q := ⟨i 0, i 1, eq_ix2 i⟩
  rw [val_main_v116_apply, Cert.QForm.qform_apply]
  show Ideal.tanh (val_main_v115 (F := Ideal) x0 x1 x2 (ix2 e q)) = _
  refine congrArg Ideal.tanh ?_
  unfold val_main_v115
  exact Cert.ColumnJoin.join16_cols (a := 800000)
    (val_main_v99 (F := Ideal) x0 x1 x2) (val_main_v100 (F := Ideal) x0 x1 x2) (val_main_v101 (F := Ideal) x0 x1 x2) (val_main_v102 (F := Ideal) x0 x1 x2) (val_main_v103 (F := Ideal) x0 x1 x2) (val_main_v104 (F := Ideal) x0 x1 x2) (val_main_v105 (F := Ideal) x0 x1 x2) (val_main_v106 (F := Ideal) x0 x1 x2) (val_main_v107 (F := Ideal) x0 x1 x2) (val_main_v108 (F := Ideal) x0 x1 x2) (val_main_v109 (F := Ideal) x0 x1 x2) (val_main_v110 (F := Ideal) x0 x1 x2) (val_main_v111 (F := Ideal) x0 x1 x2) (val_main_v112 (F := Ideal) x0 x1 x2) (val_main_v113 (F := Ideal) x0 x1 x2) (val_main_v114 (F := Ideal) x0 x1 x2)
    _ e q
    (fun q => ∑ d : Fin 128, (∑ k : Fin 128, val_main_v18 (F := Ideal) x0 x1 (ix2 e k) * x2 (ix3 q k d))
      * val_main_v18 (F := Ideal) x0 x1 (ix2 e d))
    (refcol0 x0 x1 x2 e 0) (refcol1 x0 x1 x2 e 0) (refcol2 x0 x1 x2 e 0) (refcol3 x0 x1 x2 e 0) (refcol4 x0 x1 x2 e 0) (refcol5 x0 x1 x2 e 0) (refcol6 x0 x1 x2 e 0) (refcol7 x0 x1 x2 e 0) (refcol8 x0 x1 x2 e 0) (refcol9 x0 x1 x2 e 0) (refcol10 x0 x1 x2 e 0) (refcol11 x0 x1 x2 e 0) (refcol12 x0 x1 x2 e 0) (refcol13 x0 x1 x2 e 0) (refcol14 x0 x1 x2 e 0) (refcol15 x0 x1 x2 e 0)

end Cert.ReferenceIdeal.RefValue

end
-- ==== Proof.FeatureBridge.lean ====
/-
  The two programs gather the same edge features.

  Before anything else both programs read, for every edge, the feature rows of its two end nodes (an index below zero
  is first moved up by the number of nodes, as array indexing does) and set the two rows side by side. The kernel's
  program and the reference spell this by the same operations of the same arguments, so the array the kernel's
  region finds is the reference's gathered array, as terms.
-/
import proofs.«116615_j9174050144889_2_alg».proof.Proof.KernelArray
import proofs.«116615_j9174050144889_2_alg».proof.Proof.Gen.ReferenceIdeal.Read
import Idealize.ShloMosaic.Lib.StableHlo.Run

set_option maxRecDepth 16384

noncomputable section

namespace Cert.Bridge

open Idealize.ShloMosaic Idealize.ShloMosaic.TcCoe Idealize.SL.Sem Idealize.ShloMosaic.StableHlo

set_option maxHeartbeats 4000000 in
/-- The features the kernel's region finds are the reference's gathered features of the same arguments. -/
theorem feat_eq (m : (ℓ : Loc Cert.KernelIdeal.nD Cert.KernelIdeal.τ Cert.KernelIdeal.sig) → Buf (Elt Ideal) ℓ) (c : Dev Cert.KernelIdeal.nD) :
    Cert.KernelIdeal.Hand.feat m c
      = Cert.ReferenceIdeal.Read.val_main_v18 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  show StableHlo.after Cert.KernelIdeal.Gen.hostOps0 (fun b => m (c, b)) (Proc.devRef .tc Cert.KernelIdeal.main_v18) = _
  after_results_simp <;> rfl

end Cert.Bridge

end
-- ==== Proof.lean ====
/-
  The kernel and the reference compute the same quadratic forms.

  Both programs first gather, for every edge, the features of its two end nodes into one row of 128 numbers — by the
  same operations of the arguments, so the two gathered arrays are one term Z. The kernel then packs the sixteen
  128 × 128 matrices side by side and, block of 3200 edges by block, forms tanh (∑ d, (∑ k, Z(e,k) · M(q,k,d)) · Z(e,d))
  for every edge e and matrix q; the reference forms the same double sum one matrix at a time over all edges. Both end
  by viewing the 800000 × 16 array as 800000 × 4 × 4. At the exact values the two results are the same function, entry
  by entry, with no rearrangement of the sums: the finiteness of the inputs is not needed.
  The three runs (termination, no fault, arguments unchanged) are the generated frames of the two kernels and the
  generated run of the reference; nothing was rewritten between the kernel and its idealization.
-/
import proofs.«116615_j9174050144889_2_alg».proof.Defs
import proofs.«116615_j9174050144889_2_alg».proof.Proof.Gen.Kernel
import proofs.«116615_j9174050144889_2_alg».proof.Proof.Gen.Kernel.Skeleton
import proofs.«116615_j9174050144889_2_alg».proof.Proof.Gen.Kernel.Launch
import proofs.«116615_j9174050144889_2_alg».proof.Proof.Gen.Kernel.Points
import proofs.«116615_j9174050144889_2_alg».proof.Proof.Gen.Kernel.Frame
import proofs.«116615_j9174050144889_2_alg».proof.Proof.Gen.KernelIdeal
import proofs.«116615_j9174050144889_2_alg».proof.Proof.Gen.KernelIdeal.Skeleton
import proofs.«116615_j9174050144889_2_alg».proof.Proof.Gen.KernelIdeal.Launch
import proofs.«116615_j9174050144889_2_alg».proof.Proof.Gen.KernelIdeal.Points
import proofs.«116615_j9174050144889_2_alg».proof.Proof.Gen.KernelIdeal.Frame
import proofs.«116615_j9174050144889_2_alg».proof.Proof.Gen.ReferenceIdeal
import proofs.«116615_j9174050144889_2_alg».proof.Proof.Gen.ReferenceIdeal.Run
import proofs.«116615_j9174050144889_2_alg».proof.Proof.Gen.ReferenceIdeal.Read
import proofs.«116615_j9174050144889_2_alg».proof.Proof.Gen.Pre_finite_inputs
import proofs.«116615_j9174050144889_2_alg».proof.Proof.KernelArray
import proofs.«116615_j9174050144889_2_alg».proof.Proof.RefValue
import proofs.«116615_j9174050144889_2_alg».proof.Proof.FeatureBridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both results are the quadratic forms of the one gathered feature array, viewed as 800000 × 4 × 4. -/
theorem algebraic : Cert.algebraic_KernelIdeal_ReferenceIdeal := by
  intro m ρ m' ρ' _ hagree
  refine ⟨fun c => shapeCast Cert.KernelIdeal.S800000x4x4 (Cert.KernelIdeal.Hand.G m c)
      Cert.KernelIdeal.Facts₀.shapeCasts_S800000x16_S800000x4x4, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v117_eq, (hagree c).1, (hagree c).2.1, (hagree c).2.2]
  unfold Cert.ReferenceIdeal.Read.val_main_v117
  rw [Cert.ReferenceIdeal.RefValue.tanh_stage_eq, ← Cert.Bridge.feat_eq m c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
